-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x577x3072 : Shape := ⟨3, ![64, 577, 3072]⟩
abbrev S768x3072 : Shape := ⟨2, ![768, 3072]⟩
abbrev S768 : Shape := ⟨1, ![768]⟩
abbrev S3072 : Shape := ⟨1, ![3072]⟩
abbrev S_ : Shape := ⟨0, ![]⟩

class Facts : Prop where
  bcast_S_S64x577x3072 : S_.BroadcastsInDim S64x577x3072 (![] : Fin 0 → Fin S64x577x3072.rank)
  reducesTo_S64x577x3072_S_d0_1_2 : S64x577x3072.ReducesTo [0, 1, 2] S_
  h_S_ : 0 < S_.numel
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_
  bcast_S_S3072 : S_.BroadcastsInDim S3072 (![] : Fin 0 → Fin S3072.rank)
  reducesTo_S3072_S_d0 : S3072.ReducesTo [0] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg7 : FVec F S768 .f32) (main_arg8 : FVec F S768 .f32) (main_arg9 : FVec F S768 .f32) (main_arg10 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg4 : FVec F S768 .f32) (main_arg5 : FVec F S768 .f32) (main_arg6 : FVec F S768 .f32) (main_arg7 : FVec F S768 .f32) (main_arg8 : FVec F S768 .f32) (main_arg9 : FVec F S768 .f32) (main_arg10 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x577x3072 .f32) (main_arg1 : FVec F S768x3072 .f32) (main_arg2 : FVec F S768 .f32) (main_arg3 : FVec F S3072 .f32) (main_arg4 : FVec F S768 .f32) (main_arg5 : FVec F S768 .f32) (main_arg6 : FVec F S768 .f32) (main_arg7 : FVec F S768 .f32) (main_arg8 : FVec F S768 .f32) (main_arg9 : FVec F S768 .f32) (main_arg10 : FVec F S768 .f32) : IVec S_ 1 :=
  let main_v0 : FVec F S64x577x3072 .f32 := Host.absf main_arg0
  let main_cst : FVec F S_ .f32 := constant S_ .f32 0x7F800000#32
  let main_v1 : FVec F S64x577x3072 .f32 := broadcastInDim S64x577x3072 ![] bcast_S_S64x577x3072 main_cst
  let main_v2 : IVec S64x577x3072 1 := cmpf .olt main_v0 main_v1
  let main_c : IVec S_ 1 := constantI S_ 1 1#1
  let main_v3 : IVec S_ 1 := (fun x v => Host.reduce IntOp.andi x v reducesTo_S64x577x3072_S_d0_1_2 h_S_) main_v2 main_c
  let main_v4 : FVec F S768x3072 .f32 := Host.absf main_arg1
  let main_cst_0 : FVec F S_ .f32 := constant S_ .f32 0x7F800000#32
  let main_v5 : FVec F S768x3072 .f32 := broadcastInDim S768x3072 ![] bcast_S_S768x3072 main_cst_0
  let main_v6 : IVec S768x3072 1 := cmpf .olt main_v4 main_v5
  let main_c_1 : IVec S_ 1 := constantI S_ 1 1#1
  let main_v7 : IVec S_ 1 := (fun x v => Host.reduce IntOp.andi x v reducesTo_S768x3072_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_arg7 main_arg8 main_arg9 main_arg10 main_v13 main_v16
-- ==== Kernel.lean ====
abbrev S64x577x3072 : Shape := ⟨3, ![64, 577, 3072]⟩
abbrev S768x3072 : Shape := ⟨2, ![768, 3072]⟩
abbrev S768 : Shape := ⟨1, ![768]⟩
abbrev S3072 : Shape := ⟨1, ![3072]⟩
abbrev S36928x3072 : Shape := ⟨2, ![36928, 3072]⟩
abbrev S1x3072 : Shape := ⟨2, ![1, 3072]⟩
abbrev S1x768 : Shape := ⟨2, ![1, 768]⟩
abbrev S36928x768 : Shape := ⟨2, ![36928, 768]⟩
abbrev S256x3072 : Shape := ⟨2, ![256, 3072]⟩
abbrev S256x768 : Shape := ⟨2, ![256, 768]⟩
abbrev S256x768x4 : Shape := ⟨3, ![256, 768, 4]⟩
abbrev S256 : Shape := ⟨1, ![256]⟩
abbrev S256x1 : Shape := ⟨2, ![256, 1]⟩
abbrev S64x577x768 : Shape := ⟨3, ![64, 577, 768]⟩

abbrev nBuf : Space → Nat
  | .hbm => 24
  | .vmem => 14
  | .smem => 0
  | _ => 0

abbrev bufTy : (tb : Table) → Fin (tcTables nBuf tb) → BufTy
  | .hbm, ⟨0, _⟩ => ⟨S64x577x3072, .f32⟩
  | .hbm, ⟨1, _⟩ => ⟨S768x3072, .f32⟩
  | .hbm, ⟨2, _⟩ => ⟨S768, .f32⟩
  | .hbm, ⟨3, _⟩ => ⟨S3072, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S36928x3072, .f32⟩
  | .hbm, ⟨12, _⟩ => ⟨S768x3072, .bf16⟩
  | .hbm, ⟨13, _⟩ => ⟨S1x3072, .f32⟩
  | .hbm, ⟨14, _⟩ => ⟨S1x768, .f32⟩
  | .hbm, ⟨15, _⟩ => ⟨S1x768, .f32⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S36928x768, .f32⟩
  | .hbm, ⟨23, _⟩ => ⟨S64x577x768, .f32⟩
  | .local _ .vmem, ⟨0, _⟩ => ⟨S256x3072, .f32⟩
  | .local _ .vmem, ⟨1, _⟩ => ⟨S256x3072, .f32⟩
  | .local _ .vmem, ⟨2, _⟩ => ⟨S768x3072, .bf16⟩
  | .local _ .vmem, ⟨3, _⟩ => ⟨S1x3072, .f32⟩
  | .local _ .vmem, ⟨4, _⟩ => ⟨S1x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S256x768, .f32⟩
  | .local _ .vmem, ⟨13, _⟩ => ⟨S256x768, .f32⟩
  | _, _ => ⟨S64x577x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![145], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S64x577x3072_S36928x3072 : S64x577x3072.ShapeCasts S36928x3072
  bitsLt_bf16_f32 : FTy.bits .bf16 < FTy.bits .f32
  shapeCasts_S3072_S1x3072 : S3072.ShapeCasts S1x3072
  shapeCasts_S768_S1x768 : S768.ShapeCasts S1x768
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  shapeCasts_S256x3072_S256x768x4 : S256x3072.ShapeCasts S256x768x4
  reduces_S256x768x4_S256x768 : S256x768x4.Reduces [2] S256x768
  reduces_S256x768_S256 : S256x768.Reduces [1] S256
  shapeCasts_S256_S256x1 : S256.ShapeCasts S256x1
  broadcasts_S256x1_S256x768 : S256x1.Broadcasts S256x768
  inb_S256x768_S256x768_0_0 : ∀ a, (![0, 0] : Fin 2 → Nat) a + S256x768.size a ≤ S256x768.size a
  h_S256x768 : 0 < S256x768.numel
  shapeCasts_S36928x768_S64x577x768 : S36928x768.ShapeCasts S64x577x768
  dot_S256x3072_S768x3072_S256x768_1_1_0_0_n_n_wf : DotDims.WF S256x3072 S768x3072 S256x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x3072.size a < S36928x3072.size a
  hwx0_0 : ∀ i : grid0.Coords, EltTy.bits .f32 = 32 ∨ (Rect.unit (s := S36928x3072) (fun a => cc0_transform_0 i a * S256x3072.size a) (fun a => (Pipeline.Clip.of (cc0_transform_0 i a) (S256x3072.size a) (S36928x3072.size a)).extent (S256x3072.size a)) fun a => Pipeline.Clip.inb (Pipeline.Clip.ok_of (hstart0_0 i a))).WholeWords (EltTy.packing .f32)
  hwxs0_0 : ∀ i : grid0.Coords, EltTy.bits .f32 = 32 ∨ (Rect.unit (s := S256x3072) (fun _ => 0) (fun a => (Pipeline.Clip.of (cc0_transform_0 i a) (S256x3072.size a) (S36928x3072.size a)).extent (S256x3072.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x3072.size a ≤ S768x3072.size a
  hwx0_1 : ∀ i : grid0.Coords, EltTy.bits .bf16 = 32 ∨ (Rect.block (s := S768x3072) S768x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S256x768.size a < S36928x768.size a
  hwx0_11 : ∀ i : grid0.Coords, EltTy.bits .f32 = 32 ∨ (Rect.unit (s := S36928x768) (fun a => cc0_transform_11 i a * S256x768.size a) (fun a => (Pipeline.Clip.of (cc0_transform_11 i a) (S256x768.size a) (S36928x768.size a)).extent (S256x768.size a)) fun a => Pipeline.Clip.inb (Pipeline.Clip.ok_of (hstart0_11 i a))).WholeWords (EltTy.packing .f32)
  hwxs0_11 : ∀ i : grid0.Coords, EltTy.bits .f32 = 32 ∨ (Rect.unit (s := S256x768) (fun _ => 0) (fun a => (Pipeline.Clip.of (cc0_transform_11 i a) (S256x768.size a) (S36928x768.size a)).extent (S256x768.size a)) fun a => (Nat.zero_add _).trans_le (Pipeline.Clip.extent_le (Pipeline.Clip.ok_of (hstart0_11 i a)))).WholeWords (EltTy.packing .f32)

variable [Facts₀]

def dot_S256x3072_S768x3072_S256x768_1_1_0_0_n_n : DotDims S256x3072 S768x3072 S256x768 where
  lhsContracting := [1]
  rhsContracting := [1]
  lhsNonContracting := [0]
  rhsNonContracting := [0]
  lhsBatch := []
  rhsBatch := []
  wf := dot_S256x3072_S768x3072_S256x768_1_1_0_0_n_n_wf

abbrev win0_0 : Pipeline.Window sig grid0 :=
  Pipeline.Window.ofSpecClip (Memref.whole main_v0) S256x3072.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S768x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpecClip (Memref.whole main_v11) S256x768.size cc0_transform_11 reads0_11 true false 2 stage0_11 sem0_11
    hrank0 hreads0_11 hstart0_11 nbuf0_11 (Memref.isWhole_whole _) hwx0_11 hwxs0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S64x577x3072 : Shape := ⟨3, ![64, 577, 3072]⟩
abbrev S768x3072 : Shape := ⟨2, ![768, 3072]⟩
abbrev S768 : Shape := ⟨1, ![768]⟩
abbrev S3072 : Shape := ⟨1, ![3072]⟩
abbrev S1x1x3072 : Shape := ⟨3, ![1, 1, 3072]⟩
abbrev S64x577x768 : Shape := ⟨3, ![64, 577, 768]⟩
abbrev S1x1x768 : Shape := ⟨3, ![1, 1, 768]⟩
abbrev S64x577x768x4 : Shape := ⟨4, ![64, 577, 768, 4]⟩
abbrev S_ : Shape := ⟨0, ![]⟩
abbrev S64x577 : Shape := ⟨2, ![64, 577]⟩
abbrev S64x577x1 : Shape := ⟨3, ![64, 577, 1]⟩

abbrev nBuf : Space → Nat
  | .hbm => 73
  | .vmem => 0
  | .smem => 0
  | _ => 0

abbrev bufTy : (tb : Table) → Fin (tcTables nBuf tb) → BufTy
  | .hbm, ⟨0, _⟩ => ⟨S64x577x3072, .f32⟩
  | .hbm, ⟨1, _⟩ => ⟨S768x3072, .f32⟩
  | .hbm, ⟨2, _⟩ => ⟨S768, .f32⟩
  | .hbm, ⟨3, _⟩ => ⟨S3072, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S1x1x3072, .f32⟩
  | .hbm, ⟨12, _⟩ => ⟨S64x577x3072, .f32⟩
  | .hbm, ⟨13, _⟩ => ⟨S64x577x3072, .f32⟩
  | .hbm, ⟨14, _⟩ => ⟨S64x577x768, .f32⟩
  | .hbm, ⟨15, _⟩ => ⟨S1x1x768, .f32⟩
  | .hbm, ⟨16, _⟩ => ⟨S64x577x768, .f32⟩
  | .hbm, ⟨17, _⟩ => ⟨S64x577x768, .f32⟩
  | .hbm, ⟨18, _⟩ => ⟨S64x577x768x4, .f32⟩
  | .hbm, ⟨19, _⟩ => ⟨S_, .f32⟩
  | .hbm, ⟨20, _⟩ => ⟨S64x577x768, .f32⟩
  | .hbm, ⟨21, _⟩ => ⟨S_, .f32⟩
  | .hbm, ⟨22, _⟩ => ⟨S64x577x768, .f32⟩
  | .hbm, ⟨23, _⟩ => ⟨S64x577x768, .f32⟩
  | .hbm, ⟨24, _⟩ => ⟨S_, .f32⟩
  | .hbm, ⟨25, _⟩ => ⟨S64x577, .f32⟩
  | .hbm, ⟨26, _⟩ => ⟨S64x577x1, .f32⟩
  | .hbm, ⟨27, _⟩ => ⟨S_, .f32⟩
  | .hbm, ⟨28, _⟩ => ⟨S64x577x1, .f32⟩
  | .hbm, ⟨29, _⟩ => ⟨S64x577x1, .f32⟩
  | .hbm, ⟨30, _⟩ => ⟨S64x577x768, .f32⟩
  | .hbm, ⟨31, _⟩ => ⟨S64x577x768, .f32⟩
  | .hbm, ⟨32, _⟩ => ⟨S64x577x768, .f32⟩
  | .hbm, ⟨33, _⟩ => ⟨S_, .f32⟩
  | .hbm, ⟨34, _⟩ => ⟨S64x577, .f32⟩
  | .hbm, ⟨35, _⟩ => ⟨S64x577x1, .f32⟩
  | .hbm, ⟨36, _⟩ => ⟨S_, .f32⟩
  | .hbm, ⟨37, _⟩ => ⟨S64x577x1, .f32⟩
  | .hbm, ⟨38, _⟩ => ⟨S64x577x1, .f32⟩
  | .hbm, ⟨39, _⟩ => ⟨S64x577x768, .f32⟩
  | .hbm, ⟨40, _⟩ => ⟨S64x577x768, .f32⟩
  | .hbm, ⟨41, _⟩ => ⟨S_, .f32⟩
  | .hbm, ⟨42, _⟩ => ⟨S64x577x1, .f32⟩
  | .hbm, ⟨43, _⟩ => ⟨S64x577x1, .f32⟩
  | .hbm, ⟨44, _⟩ => ⟨S64x577x1, .f32⟩
  | .hbm, ⟨45, _⟩ => ⟨S64x577x768, .f32⟩
  | .hbm, ⟨46, _⟩ => ⟨S64x577x768, .f32⟩
  | .hbm, ⟨47, _⟩ => ⟨S1x1x768, .f32⟩
  | .hbm, ⟨48, _⟩ => ⟨S64x577x768, .f32⟩
  | .hbm, ⟨49, _⟩ => ⟨S64x577x768, .f32⟩
  | .hbm, ⟨50, _⟩ => ⟨S1x1x768, .f32⟩
  | .hbm, ⟨51, _⟩ => ⟨S64x577x768, .f32⟩
  | .hbm, ⟨52, _⟩ => ⟨S64x577x768, .f32⟩
  | .hbm, ⟨53, _⟩ => ⟨S64x577x768, .f32⟩
  | .hbm, ⟨54, _⟩ => ⟨S1x1x768, .f32⟩
  | .hbm, ⟨55, _⟩ => ⟨S64x577x768, .f32⟩
  | .hbm, ⟨56, _⟩ => ⟨S64x577x768, .f32⟩
  | .hbm, ⟨57, _⟩ => ⟨S_, .f32⟩
  | .hbm, ⟨58, _⟩ => ⟨S64x577x768, .f32⟩
  | .hbm, ⟨59, _⟩ => ⟨S64x577x768, .i1⟩
  | .hbm, ⟨60, _⟩ => ⟨S1x1x768, .f32⟩
  | .hbm, ⟨61, _⟩ => ⟨S64x577x768, .f32⟩
  | .hbm, ⟨62, _⟩ => ⟨S64x577x768, .f32⟩
  | .hbm, ⟨63, _⟩ => ⟨S64x577x768, .f32⟩
  | .hbm, ⟨64, _⟩ => ⟨S1x1x768, .f32⟩
  | .hbm, ⟨65, _⟩ => ⟨S64x577x768, .f32⟩
  | .hbm, ⟨66, _⟩ => ⟨S64x577x768, .f32⟩
  | .hbm, ⟨67, _⟩ => ⟨S1x1x768, .f32⟩
  | .hbm, ⟨68, _⟩ => ⟨S64x577x768, .f32⟩
  | .hbm, ⟨69, _⟩ => ⟨S64x577x768, .f32⟩
  | .hbm, ⟨70, _⟩ => ⟨S1x1x768, .f32⟩
  | .hbm, ⟨71, _⟩ => ⟨S64x577x768, .f32⟩
  | .hbm, ⟨72, _⟩ => ⟨S64x577x768, .f32⟩
  | _, _ => ⟨S64x577x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S64x577x3072_0_1_2 : S1x1x3072.BroadcastsInDim S64x577x3072 (![0, 1, 2] : Fin 3 → Fin S64x577x3072.rank)
  bcast_S768_S1x1x768_2 : S768.BroadcastsInDim S1x1x768 (![2] : Fin 1 → Fin S1x1x768.rank)
  bcast_S1x1x768_S64x577x768_0_1_2 : S1x1x768.BroadcastsInDim S64x577x768 (![0, 1, 2] : Fin 3 → Fin S64x577x768.rank)
  shapeCasts_S64x577x3072_S64x577x768x4 : S64x577x3072.ShapeCasts S64x577x768x4
  reducesTo_S64x577x768x4_S64x577x768_d3 : S64x577x768x4.ReducesTo [3] S64x577x768
  h_S_ : 0 < S_.numel
  bcast_S_S64x577x768 : S_.BroadcastsInDim S64x577x768 (![] : Fin 0 → Fin S64x577x768.rank)
  reducesTo_S64x577x768_S64x577_d2 : S64x577x768.ReducesTo [2] S64x577
  bcast_S64x577_S64x577x1_0_1 : S64x577.BroadcastsInDim S64x577x1 (![0, 1] : Fin 2 → Fin S64x577x1.rank)
  bcast_S_S64x577x1 : S_.BroadcastsInDim S64x577x1 (![] : Fin 0 → Fin S64x577x1.rank)
  bcast_S64x577x1_S64x577x768_0_1_2 : S64x577x1.BroadcastsInDim S64x577x768 (![0, 1, 2] : Fin 3 → Fin S64x577x768.rank)
  dot_S64x577x3072_S768x3072_S64x577x768_2_1_01_0_n_n_wf : DotDims.WF S64x577x3072 S768x3072 S64x577x768 [2] [1] [0, 1] [0] [] []

variable [Facts₀]

def dot_S64x577x3072_S768x3072_S64x577x768_2_1_01_0_n_n : DotDims S64x577x3072 S768x3072 S64x577x768 where
  lhsContracting := [2]
  rhsContracting := [1]
  lhsNonContracting := [0, 1]
  rhsNonContracting := [0]
  lhsBatch := []
  rhsBatch := []
  wf := dot_S64x577x3072_S768x3072_S64x577x768_2_1_01_0_n_n_wf

class Facts : Prop extends Facts₀ where

variable [Facts]
-- ==== Proof.BodyBits.lean ====
/-
  The kernel body as one function of its eleven input blocks.

  At a grid point the body reads the whole activation block x (256 rows of 3072), the whole weight matrix W (768 rows of
  3072), the shift row (1 x 3072) and eight parameter rows (1 x 768 each), and overwrites the whole 256 x 768 output
  block with one value computed from them: the dense product of x + shift against W plus the bias, normalised along
  each row, scaled and shifted, added to the mean of each group of four neighbouring activations, passed through the
  leaky threshold and the final scale.  This module names that value (`blockOut`) and proves the body's run: the eleven
  input buffers end as they were, the output buffer ends at `blockOut` of their contents, whatever it held before.
  Nothing here depends on what floats are.
-/
import proofs.«115047_j8117488190193_1_alg».proof.Proof.Gen.Kernel.Frame
import proofs.«115047_j8117488190193_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S256x3072 := Rect.unit (s := S256x3072) ![0, 0] S256x3072.size inb_S256x3072_S256x3072_0_0
abbrev rW : Rect S768x3072 := Rect.unit (s := S768x3072) ![0, 0] S768x3072.size inb_S768x3072_S768x3072_0_0
abbrev rS : Rect S1x3072 := Rect.unit (s := S1x3072) ![0, 0] S1x3072.size inb_S1x3072_S1x3072_0_0
abbrev rP : Rect S1x768 := Rect.unit (s := S1x768) ![0, 0] S1x768.size inb_S1x768_S1x768_0_0
abbrev rO : Rect S256x768 := Rect.unit (s := S256x768) ![0, 0] S256x768.size inb_S256x768_S256x768_0_0

/-- What the body leaves in the output block: its one store, whole, of the value computed from the eleven loads. -/
def blockOut (x0 : Vec F S256x3072 .f32) (x1 : Vec F S768x3072 .bf16) (x2 : Vec F S1x3072 .f32)
    (x3 x4 x5 x6 x7 x8 x9 x10 : Vec F S1x768 .f32) : Vec F S256x768 .f32 :=
  View.canon [⟨rO, k0_pay1 (k0_pay3 (View.ld x0 rX))
    (k0_pay4 (View.ld x0 rX) (View.ld x2 rS) (View.ld x1 rW) (View.ld x3 rP) (View.ld x4 rP))
    (View.ld x5 rP) (View.ld x6 rP) (View.ld x7 rP) (View.ld x8 rP) (View.ld x9 rP) (View.ld x10 rP)⟩]

/-- The one store covers the output block. -/
theorem cover_out (p0 : Vec F S256x768 .f32) (y : S256x768.Idx) :
    ∃ pc ∈ ([⟨rO, p0⟩] : List (View.Piece (Elt F) S256x768 .f32)), y ∈ pc.1.set :=
  View.cover_of_tiled [⟨rO, p0⟩] S256x768.size (by rfl) y

set_option maxHeartbeats 4000000 in
/-- The body on whole staging memrefs: the inputs' at contents `x0 … x10`, the output's at anything, runs to the
    continuation holding the inputs' as they were and the output's at `blockOut` of them. -/
theorem sound_kernel (c : Dev nD) (E : Set ℕ) (i : grid0.Coords)
    (arg1 : Memref sig .tc .vmem S256x3072 .f32) (harg1 : arg1.IsWhole) (arg2 : Memref sig .tc .vmem S768x3072 .bf16) (harg2 : arg2.IsWhole)
    (arg3 : Memref sig .tc .vmem S1x3072 .f32) (harg3 : arg3.IsWhole) (arg4 : Memref sig .tc .vmem S1x768 .f32) (harg4 : arg4.IsWhole)
    (arg5 : Memref sig .tc .vmem S1x768 .f32) (harg5 : arg5.IsWhole) (arg6 : Memref sig .tc .vmem S1x768 .f32) (harg6 : arg6.IsWhole)
    (arg7 : Memref sig .tc .vmem S1x768 .f32) (harg7 : arg7.IsWhole) (arg8 : Memref sig .tc .vmem S1x768 .f32) (harg8 : arg8.IsWhole)
    (arg9 : Memref sig .tc .vmem S1x768 .f32) (harg9 : arg9.IsWhole) (arg10 : Memref sig .tc .vmem S1x768 .f32) (harg10 : arg10.IsWhole)
    (arg11 : Memref sig .tc .vmem S1x768 .f32) (harg11 : arg11.IsWhole) (arg12 : Memref sig .tc .vmem S256x768 .f32) (harg12 : arg12.IsWhole)
    (x0 : Vec F S256x3072 .f32) (x1 : Vec F S768x3072 .bf16) (x2 : Vec F S1x3072 .f32)
    (x3 x4 x5 x6 x7 x8 x9 x10 : Vec F S1x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (blockOut x0 x1 x2 x3 x4 x5 x6 x7 x8 x9 x10)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_out _)

end Cert.Kernel.Body

end
-- ==== Proof.FrameBits.lean ====
/-
  The frame of the word-level program: it runs to the end without a fault and leaves its eleven argument arrays as
  it found them.

  The last grid point's activation block and output block hang over the end of their arrays (36928 rows in blocks of
  256: the last block has 64 rows inside).  The rows of the staging buffers past the array's end hold words nothing
  names, and the body computes from them too; so what the body leaves in the output buffer is not a function of the
  argument arrays alone, and this proof does not name it: the output window is forgotten (handed to the body at any
  contents, taken back at any contents).  The activation window is stated on the rows inside the array, the ten
  resident windows at their whole blocks; none of them is written by the body.  The arguments themselves are no
  window's array (the windows' arrays are the host reshapes of them), no host line writes one, and the one line after
  the region writes only the result: so each ends as launched.
-/
import proofs.«115047_j8117488190193_1_alg».proof.Proof.BodyBits

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body the activation buffer at its block inside the
    array (filled out with a zero word the proof picks and nothing reads), each resident buffer at its block, the
    output buffer at contents nothing reads (the window is forgotten). -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => fun _ => Scalar.ofBits .f32 0#32
  Φ _ := Pipeline.ΦA spec0 c
  q _ := fullShare
  owed _ := 0

/-- The output window is the one forgotten. -/
abbrev fgt : Fin cfg0.W → Bool := fun | 0 => false | 1 => false | 2 => false | 3 => false | 4 => false | 5 => false | 6 => false | 7 => false | 8 => false | 9 => false | 10 => false | 11 => true | ⟨_ + 12, h⟩ => absurd h (Nat.not_lt.2 (Nat.le_add_left _ _))

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => Scalar.ofBits .f32 0#32) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- The activation window is fetched at every point: its buffer holds the block's rows inside the array, and `d` past them. -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq m c 0]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The body at any point: the inputs' buffers hold what the pipeline put there, the body reads them and overwrites the
    output's; the invariant and the core's dues pass through unread. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ X, owns (c : Thread nD τ) (st0_11 t) fullShare X))
    ⊢ wp frame (wpE (defs₀ (F := F)) Variants.none c none) Set.univ (bodyAt0 t) (fun _ =>
      iprop((dats m 0 c).Φ t.succ ∗ (dats m 0 c).owesAt () t.succ
        ∗ (∃ d, owns (c : Thread nD τ) (st0_0 t) fullShare (win0_0.fill (grid0.coords t) d (win0_0.cut (grid0.coords t) ((dats m 0 c).after 0 t))))
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t)
        ∗ owns (c : Thread nD τ) (st0_8 t) fullShare ((dats m 0 c).after 8 t)
        ∗ owns (c : Thread nD τ) (st0_9 t) fullShare ((dats m 0 c).after 9 t)
        ∗ owns (c : Thread nD τ) (st0_10 t) fullShare ((dats m 0 c).after 10 t)
        ∗ (∃ X, owns (c : Thread nD τ) (st0_11 t) fullShare X))) := by
  unfold bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, win0_0.cut_fill, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X, H11⟩⟩
  iapply (sound_kernel c Set.univ (grid0.coords t) _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

/-- The library's body obligation, the output window forgotten. -/
theorem body_obligation (c : Dev nD) :
    BodyObligationLoose (dats (F := F) m 0 c) (defs₀ (F := F)) Variants.none () Set.univ fgt := fun t => by
  rw [bigSep_W0, bigSep_W0]
  exact sound_body m c t

/-- The one host line after the region writes the result buffer only. -/
theorem tail_writes : ∀ ops ∈ ([hostOps1] : List (List (HloOp τ sig (Elt F)))), ∀ op ∈ ops,
    ∀ b : Ref sig .tc, Proc.devRef .tc b ∈ op.writes → b ∈ ({main_v12} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  exact Finset.mem_singleton.mpr (Proc.devRef_injective (τ := τ) _ hb)

set_option backward.isDefEq.respectTransparency.types false in
/-- The run: every weakly fair execution of the program terminates without a fault, and every unscoped buffer that is
    no window's array and is not the result ends at what it held when the region was entered. -/
theorem run_main : θ_run defs (onTc (τ := τ) (main (F := F))) (s₀ m ρ)
    (Pipeline.RDat.FramePostR cfg0 (fun c => (dats m 0 c).toRForget fgt) ({main_v12} : Finset (Ref sig .tc))
      (fun c b => V0 m c (Proc.devRef .tc b))) :=
  Pipeline.RDat.θ_run_frame_around_T cfgs (0 : Fin 1) launch0 defs₀ Variants.none (fun c => (dats m 0 c).toRForget fgt)
    ({main_v12} : Finset (Ref sig .tc)) m ρ main
    (hbody := fun c => (body_obligation m c).toRForget) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame: the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c)⟩) (run_main m ρ)

end Cert.Kernel.FrameProof

end
-- ==== Proof.BodyIdeal.lean ====
/-
  The kernel body as one function of its eleven input blocks.

  At a grid point the body reads the whole activation block x (256 rows of 3072), the whole weight matrix W (768 rows of
  3072), the shift row (1 x 3072) and eight parameter rows (1 x 768 each), and overwrites the whole 256 x 768 output
  block with one value computed from them: the dense product of x + shift against W plus the bias, normalised along
  each row, scaled and shifted, added to the mean of each group of four neighbouring activations, passed through the
  leaky threshold and the final scale.  This module names that value (`blockOut`) and proves the body's run: the eleven
  input buffers end as they were, the output buffer ends at `blockOut` of their contents, whatever it held before.
  Nothing here depends on what floats are.
-/
import proofs.«115047_j8117488190193_1_alg».proof.Proof.Gen.KernelIdeal.Frame
import proofs.«115047_j8117488190193_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S256x3072 := Rect.unit (s := S256x3072) ![0, 0] S256x3072.size inb_S256x3072_S256x3072_0_0
abbrev rW : Rect S768x3072 := Rect.unit (s := S768x3072) ![0, 0] S768x3072.size inb_S768x3072_S768x3072_0_0
abbrev rS : Rect S1x3072 := Rect.unit (s := S1x3072) ![0, 0] S1x3072.size inb_S1x3072_S1x3072_0_0
abbrev rP : Rect S1x768 := Rect.unit (s := S1x768) ![0, 0] S1x768.size inb_S1x768_S1x768_0_0
abbrev rO : Rect S256x768 := Rect.unit (s := S256x768) ![0, 0] S256x768.size inb_S256x768_S256x768_0_0

/-- What the body leaves in the output block: its one store, whole, of the value computed from the eleven loads. -/
def blockOut (x0 : Vec F S256x3072 .f32) (x1 : Vec F S768x3072 .bf16) (x2 : Vec F S1x3072 .f32)
    (x3 x4 x5 x6 x7 x8 x9 x10 : Vec F S1x768 .f32) : Vec F S256x768 .f32 :=
  View.canon [⟨rO, k0_pay1 (k0_pay3 (View.ld x0 rX))
    (k0_pay4 (View.ld x0 rX) (View.ld x2 rS) (View.ld x1 rW) (View.ld x3 rP) (View.ld x4 rP))
    (View.ld x5 rP) (View.ld x6 rP) (View.ld x7 rP) (View.ld x8 rP) (View.ld x9 rP) (View.ld x10 rP)⟩]

/-- The one store covers the output block. -/
theorem cover_out (p0 : Vec F S256x768 .f32) (y : S256x768.Idx) :
    ∃ pc ∈ ([⟨rO, p0⟩] : List (View.Piece (Elt F) S256x768 .f32)), y ∈ pc.1.set :=
  View.cover_of_tiled [⟨rO, p0⟩] S256x768.size (by rfl) y

set_option maxHeartbeats 4000000 in
/-- The body on whole staging memrefs: the inputs' at contents `x0 … x10`, the output's at anything, runs to the
    continuation holding the inputs' as they were and the output's at `blockOut` of them. -/
theorem sound_kernel (c : Dev nD) (E : Set ℕ) (i : grid0.Coords)
    (arg1 : Memref sig .tc .vmem S256x3072 .f32) (harg1 : arg1.IsWhole) (arg2 : Memref sig .tc .vmem S768x3072 .bf16) (harg2 : arg2.IsWhole)
    (arg3 : Memref sig .tc .vmem S1x3072 .f32) (harg3 : arg3.IsWhole) (arg4 : Memref sig .tc .vmem S1x768 .f32) (harg4 : arg4.IsWhole)
    (arg5 : Memref sig .tc .vmem S1x768 .f32) (harg5 : arg5.IsWhole) (arg6 : Memref sig .tc .vmem S1x768 .f32) (harg6 : arg6.IsWhole)
    (arg7 : Memref sig .tc .vmem S1x768 .f32) (harg7 : arg7.IsWhole) (arg8 : Memref sig .tc .vmem S1x768 .f32) (harg8 : arg8.IsWhole)
    (arg9 : Memref sig .tc .vmem S1x768 .f32) (harg9 : arg9.IsWhole) (arg10 : Memref sig .tc .vmem S1x768 .f32) (harg10 : arg10.IsWhole)
    (arg11 : Memref sig .tc .vmem S1x768 .f32) (harg11 : arg11.IsWhole) (arg12 : Memref sig .tc .vmem S256x768 .f32) (harg12 : arg12.IsWhole)
    (x0 : Vec F S256x3072 .f32) (x1 : Vec F S768x3072 .bf16) (x2 : Vec F S1x3072 .f32)
    (x3 x4 x5 x6 x7 x8 x9 x10 : Vec F S1x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (blockOut x0 x1 x2 x3 x4 x5 x6 x7 x8 x9 x10)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_out _)

end Cert.KernelIdeal.Body

end
-- ==== Proof.RowSpec.lean ====
/-
  One row of the result, as a function of one row of the activations and of the parameters.

  For an activation row x (3072 numbers), a shift s, a weight matrix W (768 rows of 3072), and the parameter rows
  b, g, be, m1, a, m2, al, lm (768 numbers each):
    d q     = (sum over e of (x e + s e) * W q e) + b q                      the dense row
    mean    = (sum over k of d k) / 768
    var     = (sum over k of (d k - mean)^2) / 768
    pool q  = (x (4q) + x (4q+1) + x (4q+2) + x (4q+3)) / 4                  the mean of four neighbours
    z q     = (d q - mean) * rsqrt (var + eps) * g q + be q + pool q - m1 q
    out q   = ((z q if z q >= 0 else a q * z q) + m2 q) * al q + lm q
  all over the extended reals, with the exact operations (division, reciprocal square root, comparison) the two
  programs use there; eps, 4 and 768 are the common float words of both programs, never evaluated.
-/
import Idealize.ShloMosaic.PureOps.Ideal
import Idealize.ShloMosaic.PureOps.Ideal.Laws
import Idealize.ShloMosaic.Lib.ValueIdx

noncomputable section

namespace Cert.RowSpec

open Idealize.ShloMosaic

/-- The dense row: the shifted activations against row `q` of the weights, plus the bias. -/
def dense (x s : Fin 3072 → EReal) (W : Fin 768 → Fin 3072 → EReal) (b : Fin 768 → EReal) (q : Fin 768) : EReal :=
  (∑ e : Fin 3072, (x e + s e) * W q e) + b q

/-- The mean of a row of 768. -/
def mean (d : Fin 768 → EReal) : EReal :=
  Ideal.div (∑ k : Fin 768, d k) (Ideal.ofBits .f32 0x44400000#32)

/-- The mean squared deviation of a row of 768. -/
def variance (d : Fin 768 → EReal) : EReal :=
  Ideal.div (∑ k : Fin 768, (d k - mean d) * (d k - mean d)) (Ideal.ofBits .f32 0x44400000#32)

/-- The mean of the four neighbouring activations `4q … 4q+3`. -/
def pooled (x : Fin 3072 → EReal) (q : Fin 768) : EReal :=
  Ideal.div (∑ k : Fin 4, x ⟨q.val * 4 + k.val, by have := q.isLt; have := k.isLt; omega⟩) (Ideal.ofBits .f32 0x40800000#32)

/-- The normalised, scaled and shifted dense row plus the pooled activations, less the first move. -/
def pre (x s : Fin 3072 → EReal) (W : Fin 768 → Fin 3072 → EReal) (b g be m1 : Fin 768 → EReal) (q : Fin 768) : EReal :=
  (dense x s W b q - mean (dense x s W b)) * Ideal.rsqrt (variance (dense x s W b) + Ideal.ofBits .f32 0x2B8CBCCC#32) * g q
    + be q + pooled x q - m1 q

/-- Entry `q` of the result row. -/
def rowOut (x s : Fin 3072 → EReal) (W : Fin 768 → Fin 3072 → EReal) (b g be m1 a m2 al lm : Fin 768 → EReal) (q : Fin 768) : EReal :=
  (Scalar.select (Ideal.cmp .oge (pre x s W b g be m1 q) (Ideal.ofBits .f32 0x00000000#32)) (pre x s W b g be m1 q)
      (a q * pre x s W b g be m1 q) + m2 q) * al q + lm q

end Cert.RowSpec

end
-- ==== Proof.LibLaneGroups.lean ====
/-
  Lanes split into groups: a general layout lemma, the lane-side companion of the row-block cast. An `[a, n]` array
  viewed as `[a, b, c]` with `n = b * c` keeps the row-major order, so entry `(p, q, k)` of the view is entry
  `(p, q * c + k)` of the array: group `q` of a row is its `c` consecutive lanes from `q * c` on.
-/
import Idealize.ShloMosaic.Lib.Pipeline.Value
import Idealize.ShloMosaic.Lib.ValueIdx

namespace Cert.Layout

open Idealize.ShloMosaic Idealize.ShloMosaic.ValueIdx

/-- An `[a, n]` array viewed `[a, b, c]` (so `n = b * c`) reads, at `(p, q, k)`, the operand's entry `(p, q * c + k)`. -/
theorem shapeCast_lanes_groups_apply {α : Type} {a n b c : ℕ} (x : (⟨2, ![a, n]⟩ : Shape).Idx → α)
    (h : (⟨2, ![a, n]⟩ : Shape).ShapeCasts ⟨3, ![a, b, c]⟩) (hn : n = b * c) (p : Fin a) (q : Fin b) (k : Fin c)
    (hqk : q.val * c + k.val < n) :
    shapeCast ⟨3, ![a, b, c]⟩ x h (ix3 p q k) = x (ix2 p ⟨q.val * c + k.val, hqk⟩) := by
  refine shapeCast_apply x h _ _ ?_
  rw [Shape.rowMajor_val_two, Shape.rowMajor_val_three]
  show p.val * n + (q.val * c + k.val) = (p.val * b + q.val) * c + k.val
  rw [hn]; ring

end Cert.Layout
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibUnitAxes.lean ====
/-
  Unit axes added and dropped: general layout lemmas, in the style of the library's leading-unit-axis forms.
  A block of a rank-4 array is `[1, 1, a, b]`; viewed as the matrix `[a, b]` its entry `(p, c)` is the block's
  entry `(0, 0, p, c)`. A vector `[a]` kept as a column `[a, 1]` has, at `(p, 0)`, the vector's entry `p`.
  Both are the same row-major position on the two sides.
-/
import Idealize.ShloMosaic.Lib.Pipeline.Value
import Idealize.ShloMosaic.Lib.ValueIdx

namespace Cert.Layout

open Idealize.ShloMosaic Idealize.ShloMosaic.ValueIdx

/-- A `[1, 1, a, b]` block viewed as the matrix `[a, b]` reads, at `(p, c)`, the block's entry `(0, 0, p, c)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) := by
  refine shapeCast_apply x h (ix2 p c) (ix4 (0 : Fin 1) (0 : Fin 1) p c) ?_
  rw [Shape.rowMajor_val_four, Shape.rowMajor_val_two]
  show ((0 * 1 + 0) * a + p.val) * b + c.val = p.val * b + c.val
  simp

/-- A vector `[a]` kept as a column `[a, 1]` reads, at `(p, 0)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  simp

end Cert.Layout
-- ==== Proof.BlockValue.lean ====
/-
  The body's value at an index, over the extended reals.

  Entry (p, q) of the block the body stores is the row function of `RowSpec` applied to row p of the activation
  block and to the parameter rows: the matrix product against the transposed weights is, entry by entry, a sum over
  the 3072 lanes; each lane reduction is a sum over its axis; each broadcast repeats a row or a column; each
  same-shape cast is the identity; a change of float format is the identity.  In particular entry (p, q) depends on
  the activation block through its row p only.
-/
import proofs.«115047_j8117488190193_1_alg».proof.Proof.BodyIdeal
import proofs.«115047_j8117488190193_1_alg».proof.Proof.RowSpec
import proofs.«115047_j8117488190193_1_alg».proof.Proof.LibLaneGroups
import proofs.«115047_j8117488190193_1_alg».proof.Proof.LibRank3Layout
import proofs.«115047_j8117488190193_1_alg».proof.Proof.LibMatmulNT
import proofs.«115047_j8117488190193_1_alg».proof.Proof.LibColumnBroadcast
import proofs.«115047_j8117488190193_1_alg».proof.Proof.LibUnitAxes
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.BlockValue

open Cert.KernelIdeal Cert.KernelIdeal.Gen Cert.RowSpec
open Idealize.ShloMosaic Idealize.ShloMosaic.ValueIdx

/-- The mean of four neighbouring lanes: the group cast, the lane sum, the quotient by four. -/
theorem pooled_apply (X0 : FVec Ideal S256x3072 .f32) (hXX : S256x3072.ShapeCasts S256x3072) (hG : S256x3072.ShapeCasts S256x768x4)
    (hR : S256x768x4.Reduces [2] S256x768) (p : Fin 256) (q : Fin 768) :
    divf (multiReduction .add [2] S256x768 (shapeCast S256x768x4 (shapeCast S256x3072 X0 hXX) hG) 0x00000000#32 hR (.inl rfl) rfl)
        (broadcast S256x768 (Scalar.ofBits .f32 0x40800000#32)) (ix2 p q)
      = pooled (fun e => X0 (ix2 p e)) q := by
  rw [shapeCast_self]
  unfold pooled
  refine congrArg (fun z => Ideal.div z (Ideal.ofBits .f32 0x40800000#32)) ?_
  refine (Cert.LibRank3.sum_lane_apply (shapeCast S256x768x4 X0 hG) 0x00000000#32 hR (.inl rfl) rfl p q).trans ?_
  refine Finset.sum_congr rfl fun k _ => ?_
  exact Cert.Layout.shapeCast_lanes_groups_apply X0 hG rfl p q k _

theorem pay3_apply (X0 : Vec Ideal S256x3072 .f32) (p : Fin 256) (q : Fin 768) :
    k0_pay3 (F := Ideal) X0 (ix2 p q) = pooled (fun e => X0 (ix2 p e)) q :=
  pooled_apply X0 _ _ _ p q

/-- The dense block at an index: the product of the shifted activations against the transposed weights (a sum over the
    3072 lanes, into a zero accumulator), plus the bias row. -/
theorem dense_apply (X0 : FVec Ideal S256x3072 .f32) (X2 : FVec Ideal S1x3072 .f32) (X1 : FVec Ideal S768x3072 .bf16) (X3 : FVec Ideal S1x768 .f32)
    (hXX : S256x3072.ShapeCasts S256x3072) (hSS : S1x3072.ShapeCasts S1x3072) (hSB : S1x3072.Broadcasts S256x3072)
    (hlt : FTy.bits .bf16 < FTy.bits .f32) (hWW : S768x3072.ShapeCasts S768x3072) (hPP : S1x768.ShapeCasts S1x768)
    (hPB : S1x768.Broadcasts S256x768) (p : Fin 256) (q : Fin 768) :
    addf (matmul dot_S256x3072_S768x3072_S256x768_1_1_0_0_n_n none
          (truncf .bf16 (addf (shapeCast S256x3072 X0 hXX) (broadcastTo S256x3072 (shapeCast S1x3072 X2 hSS) hSB)) hlt)
          (shapeCast S768x3072 X1 hWW) (constant S256x768 .f32 0x00000000#32))
        (broadcastTo S256x768 (shapeCast S1x768 X3 hPP) hPB) (ix2 p q)
      = dense (fun e => X0 (ix2 p e)) (fun e => X2 (ix2 (0 : Fin 1) e)) (fun q e => X1 (ix2 q e)) (fun q => X3 (ix2 (0 : Fin 1) q)) q := by
  rw [shapeCast_self, shapeCast_self, shapeCast_self, shapeCast_self]
  unfold dense
  refine congrArg₂ (· + ·) ?_ (broadcastTo_1b_ab_apply X3 hPB p q)
  refine (Cert.LibMatmulNT.matmul_zero_apply _ none _ _ p q).trans ?_
  refine Finset.sum_congr rfl fun e _ => ?_
  refine congrArg (· * X1 (ix2 q e)) ?_
  exact congrArg (X0 (ix2 p e) + ·) (broadcastTo_1b_ab_apply X2 hSB p e)

/-! ## The row statistics, as functions of a 256 x 768 block -/

/-- The column of row means. -/
def meanCol (D : FVec Ideal S256x768 .f32) (hR : S256x768.Reduces [1] S256) (hC : S256.ShapeCasts S256x1) : FVec Ideal S256x1 .f32 :=
  divf (shapeCast S256x1 (multiReduction .add [1] S256 D 0x00000000#32 hR (.inl rfl) rfl) hC)
    (broadcast S256x1 (Scalar.ofBits .f32 0x44400000#32))

/-- The block less its row means. -/
def centred (D : FVec Ideal S256x768 .f32) (hR : S256x768.Reduces [1] S256) (hC : S256.ShapeCasts S256x1)
    (hB : S256x1.Broadcasts S256x768) : FVec Ideal S256x768 .f32 :=
  subf D (broadcastTo S256x768 (meanCol D hR hC) hB)

/-- The normalised block scaled by the row `X4`. -/
def normed (D : FVec Ideal S256x768 .f32) (X4 : FVec Ideal S1x768 .f32) (hR : S256x768.Reduces [1] S256) (hC : S256.ShapeCasts S256x1)
    (hB : S256x1.Broadcasts S256x768) (hPP : S1x768.ShapeCasts S1x768) (hPB : S1x768.Broadcasts S256x768) : FVec Ideal S256x768 .f32 :=
  mulf (mulf (centred D hR hC hB)
      (broadcastTo S256x768 (rsqrt (addf (meanCol (mulf (centred D hR hC hB) (centred D hR hC hB)) hR hC)
        (broadcast S256x1 (Scalar.ofBits .f32 0x2B8CBCCC#32)))) hB))
    (broadcastTo S256x768 (shapeCast S1x768 X4 hPP) hPB)

theorem meanCol_apply (D : FVec Ideal S256x768 .f32) (hR : S256x768.Reduces [1] S256) (hC : S256.ShapeCasts S256x1) (p : Fin 256) :
    meanCol D hR hC (ix2 p (0 : Fin 1)) = mean (fun k => D (ix2 p k)) := by
  unfold meanCol mean
  refine congrArg (fun z => Ideal.div z (Ideal.ofBits .f32 0x44400000#32)) ?_
  refine (Cert.Layout.shapeCast_a_a1_apply _ hC p).trans ?_
  exact Cert.LibRank3.sum_row_apply D 0x00000000#32 hR (.inl rfl) rfl p

theorem centred_apply (D : FVec Ideal S256x768 .f32) (hR : S256x768.Reduces [1] S256) (hC : S256.ShapeCasts S256x1)
    (hB : S256x1.Broadcasts S256x768) (p : Fin 256) (q : Fin 768) :
    centred D hR hC hB (ix2 p q) = D (ix2 p q) - mean (fun k => D (ix2 p k)) := by
  unfold centred
  refine congrArg (D (ix2 p q) - ·) ?_
  exact (Cert.Layout.broadcastTo_a1_ab_apply _ hB p q).trans (meanCol_apply D hR hC p)

theorem normed_apply (D : FVec Ideal S256x768 .f32) (X4 : FVec Ideal S1x768 .f32) (hR : S256x768.Reduces [1] S256) (hC : S256.ShapeCasts S256x1)
    (hB : S256x1.Broadcasts S256x768) (hPP : S1x768.ShapeCasts S1x768) (hPB : S1x768.Broadcasts S256x768) (p : Fin 256) (q : Fin 768) :
    normed D X4 hR hC hB hPP hPB (ix2 p q)
      = (D (ix2 p q) - mean (fun k => D (ix2 p k)))
          * Ideal.rsqrt (variance (fun k => D (ix2 p k)) + Ideal.ofBits .f32 0x2B8CBCCC#32) * X4 (ix2 (0 : Fin 1) q) := by
  unfold normed
  rw [shapeCast_self]
  refine congrArg₂ (· * ·) (congrArg₂ (· * ·) (centred_apply D hR hC hB p q) ?_) (broadcastTo_1b_ab_apply X4 hPB p q)
  refine (Cert.Layout.broadcastTo_a1_ab_apply _ hB p q).trans ?_
  refine congrArg (fun z => Ideal.rsqrt (z + Ideal.ofBits .f32 0x2B8CBCCC#32)) ?_
  refine (meanCol_apply _ hR hC p).trans ?_
  unfold variance
  refine congrArg (fun z => Ideal.div z (Ideal.ofBits .f32 0x44400000#32)) ?_
  refine Finset.sum_congr rfl fun k _ => ?_
  exact congrArg₂ (· * ·) (centred_apply D hR hC hB p k) (centred_apply D hR hC hB p k)

/-- The dense row, normalised along itself and scaled: entry `(p, q)` of the body's second intermediate. -/
theorem pay4_apply (X0 : Vec Ideal S256x3072 .f32) (X2 : Vec Ideal S1x3072 .f32) (X1 : Vec Ideal S768x3072 .bf16)
    (X3 X4 : Vec Ideal S1x768 .f32) (p : Fin 256) (q : Fin 768) :
    k0_pay4 (F := Ideal) X0 X2 X1 X3 X4 (ix2 p q)
      = (dense (fun e => X0 (ix2 p e)) (fun e => X2 (ix2 (0 : Fin 1) e)) (fun q e => X1 (ix2 q e)) (fun q => X3 (ix2 (0 : Fin 1) q)) q
            - mean (dense (fun e => X0 (ix2 p e)) (fun e => X2 (ix2 (0 : Fin 1) e)) (fun q e => X1 (ix2 q e)) (fun q => X3 (ix2 (0 : Fin 1) q))))
          * Ideal.rsqrt (variance (dense (fun e => X0 (ix2 p e)) (fun e => X2 (ix2 (0 : Fin 1) e)) (fun q e => X1 (ix2 q e)) (fun q => X3 (ix2 (0 : Fin 1) q)))
              + Ideal.ofBits .f32 0x2B8CBCCC#32)
          * X4 (ix2 (0 : Fin 1) q) := by
  refine (normed_apply _ X4 _ _ _ _ _ p q).trans ?_
  simp only [k0_pay2, dense_apply]

/-- The last stretch of the body: the shift, the pooled term, the move, the leaky threshold, the move, the scale and
    the shift, all lane by lane against the parameter rows. -/
theorem pay1_apply (Pl Ln : FVec Ideal S256x768 .f32) (X5 X6 X7 X8 X9 X10 : Vec Ideal S1x768 .f32) (p : Fin 256) (q : Fin 768) :
    k0_pay1 (F := Ideal) Pl Ln X5 X6 X7 X8 X9 X10 (ix2 p q)
      = (Scalar.select (Ideal.cmp .oge (Ln (ix2 p q) + X5 (ix2 (0 : Fin 1) q) + Pl (ix2 p q) - X6 (ix2 (0 : Fin 1) q)) (Ideal.ofBits .f32 0x00000000#32))
            (Ln (ix2 p q) + X5 (ix2 (0 : Fin 1) q) + Pl (ix2 p q) - X6 (ix2 (0 : Fin 1) q))
            (X7 (ix2 (0 : Fin 1) q) * (Ln (ix2 p q) + X5 (ix2 (0 : Fin 1) q) + Pl (ix2 p q) - X6 (ix2 (0 : Fin 1) q)))
          + X8 (ix2 (0 : Fin 1) q)) * X9 (ix2 (0 : Fin 1) q) + X10 (ix2 (0 : Fin 1) q) := by
  unfold k0_pay1
  simp only [shapeCast_self]
  simp only [addf_apply, subf_apply, mulf_apply, select_apply, cmpf_apply, broadcast_apply, broadcastTo_1b_ab_apply]
  rfl

/-- Entry `(p, q)` of the block the body stores is the row function at row `p` of the activation block. -/
theorem blockOut_apply (X0 : Vec Ideal S256x3072 .f32) (X1 : Vec Ideal S768x3072 .bf16) (X2 : Vec Ideal S1x3072 .f32)
    (X3 X4 X5 X6 X7 X8 X9 X10 : Vec Ideal S1x768 .f32) (p : Fin 256) (q : Fin 768) :
    Cert.KernelIdeal.Body.blockOut (F := Ideal) X0 X1 X2 X3 X4 X5 X6 X7 X8 X9 X10 (ix2 p q)
      = rowOut (fun e => X0 (ix2 p e)) (fun e => X2 (ix2 (0 : Fin 1) e)) (fun q e => X1 (ix2 q e))
          (fun q => X3 (ix2 (0 : Fin 1) q)) (fun q => X4 (ix2 (0 : Fin 1) q)) (fun q => X5 (ix2 (0 : Fin 1) q))
          (fun q => X6 (ix2 (0 : Fin 1) q)) (fun q => X7 (ix2 (0 : Fin 1) q)) (fun q => X8 (ix2 (0 : Fin 1) q))
          (fun q => X9 (ix2 (0 : Fin 1) q)) (fun q => X10 (ix2 (0 : Fin 1) q)) q := by
  have hz : (![0, 0] : Fin 2 → Nat) = fun _ => 0 := funext fun a => by fin_cases a <;> rfl
  unfold Cert.KernelIdeal.Body.blockOut
  rw [View.canon_unit_zero hz]
  simp only [View.ld_unit_zero (S := S256x3072) hz, View.ld_unit_zero (S := S768x3072) hz, View.ld_unit_zero (S := S1x3072) hz,
    View.ld_unit_zero (S := S1x768) hz]
  rw [pay1_apply, pay3_apply, pay4_apply]
  rfl

end Cert.KernelIdeal.BlockValue

end
-- ==== Proof.RunIdeal.lean ====
/-
  The idealized kernel's run, with what every point leaves named.

  At a grid point the activation buffer holds the point's 256-row block of the (reshaped) activations on the rows inside
  the array — all 256 rows except at the last point, whose block has 64 rows inside — and words nothing names past
  them; the ten resident buffers hold their whole arrays.  The body leaves in the output buffer `blockOut` of these.
  Over the extended reals entry (p, q) of `blockOut` reads the activation block through its row p only, so the rows of
  the output buffer inside the array — the only ones the write-back moves — do not depend on the unnamed words: they
  are the rows of `blockOut` of the block filled out with zeros, which is what this proof data names.  With that the
  body obligation holds at every point, the library's frame run applies, and the frame follows.
-/
import proofs.«115047_j8117488190193_1_alg».proof.Proof.BlockValue

set_option maxRecDepth 16384

noncomputable section

namespace Cert.KernelIdeal.RunProof

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.RowSpec Cert.KernelIdeal.BlockValue Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The filler past the array's end: zeros. -/
def zeroPad : S256x3072.Idx → Elt Ideal .f32 := fun _ => Scalar.ofBits (F := Ideal) .f32 0#32

/-- The activation block at point `t` filled out with zeros past the array's end. -/
def xfill (c : Dev nD) (t : Fin cfg0.N) : S256x3072.Idx → Elt Ideal .f32 :=
  win0_0.fill (grid0.coords t) zeroPad (iblk m c 0 t)

/-- The proof data: the arrays as the region finds them; after the body the activation buffer at its block inside the
    array (filled out with zeros), each resident buffer at its block, the output buffer at `blockOut` of these. -/
def dats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blockOut (xfill m c t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) :
    (dats m 0 c).after 11 t = blockOut (xfill m c t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- The activation window is fetched at every point: its buffer holds the block's rows inside the array, and `d` past them. -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq m c 0]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The rows the transfers move -/

/-- At every point the activation window and the output window are cut to the same number of rows, and the activation
    window is not cut along its lanes. -/
theorem cut_facts : ∀ t : Fin cfg0.N, win0_0.xsize (grid0.coords t) (0 : Fin 2) = win0_11.xsize (grid0.coords t) (0 : Fin 2)
    ∧ win0_0.xsize (grid0.coords t) (1 : Fin 2) = 3072 :=
  (by decide +kernel : ∀ t : Fin grid0.N, _)

/-- The row and the lane, in the 256 x 768 block, of an index of the part of it the write-back moves. -/
def rowOf (t : Fin cfg0.N) (y : (win0_11.xblock (grid0.coords t)).Idx) : Fin 256 := win0_11.xinj (grid0.coords t) y 0
def colOf (t : Fin cfg0.N) (y : (win0_11.xblock (grid0.coords t)).Idx) : Fin 768 := win0_11.xinj (grid0.coords t) y 1

theorem xinj_eq (t : Fin cfg0.N) (y : (win0_11.xblock (grid0.coords t)).Idx) :
    (win0_11.xinj (grid0.coords t) y : S256x768.Idx) = ix2 (rowOf t y) (colOf t y) :=
  funext fun a => match a with | ⟨0, _⟩ => rfl | ⟨1, _⟩ => rfl

/-- A lane of a row the output window moves is a lane the activation window moves. -/
theorem moved_row (t : Fin cfg0.N) (y : (win0_11.xblock (grid0.coords t)).Idx) (e : Fin 3072) :
    win0_0.moved (grid0.coords t) (ix2 (rowOf t y) e) = true := by
  rw [Window.moved_iff]
  obtain ⟨h0, h1⟩ := cut_facts t
  intro a
  match a with
  | ⟨0, _⟩ => show (y 0).val < win0_0.xsize (grid0.coords t) (0 : Fin 2); rw [h0]; exact (y 0).isLt
  | ⟨1, _⟩ => show e.val < win0_0.xsize (grid0.coords t) (1 : Fin 2); rw [h1]; exact e.isLt

/-- On a moved index the filled block does not depend on what it was filled out with. -/
theorem fill_indep (t : Fin cfg0.N) (d d' : S256x3072.Idx → Elt Ideal .f32)
    (g : (win0_0.xblock (grid0.coords t)).Idx → Elt Ideal .f32) (j : S256x3072.Idx)
    (h : win0_0.moved (grid0.coords t) j = true) :
    win0_0.fill (grid0.coords t) d g j = win0_0.fill (grid0.coords t) d' g j := by
  unfold Window.fill; rw [dif_pos h, dif_pos h]

/-- The rows of the output block inside the array do not depend on what the activation buffer holds past the array. -/
theorem cut_blockOut_indep (t : Fin cfg0.N) (d d' : S256x3072.Idx → Elt Ideal .f32)
    (g : (win0_0.xblock (grid0.coords t)).Idx → Elt Ideal .f32)
    (X1 : Vec Ideal S768x3072 .bf16) (X2 : Vec Ideal S1x3072 .f32) (X3 X4 X5 X6 X7 X8 X9 X10 : Vec Ideal S1x768 .f32) :
    win0_11.cut (grid0.coords t) (blockOut (win0_0.fill (grid0.coords t) d g) X1 X2 X3 X4 X5 X6 X7 X8 X9 X10)
      = win0_11.cut (grid0.coords t) (blockOut (win0_0.fill (grid0.coords t) d' g) X1 X2 X3 X4 X5 X6 X7 X8 X9 X10) := by
  funext y
  show blockOut (win0_0.fill (grid0.coords t) d g) X1 X2 X3 X4 X5 X6 X7 X8 X9 X10 (win0_11.xinj (grid0.coords t) y)
    = blockOut (win0_0.fill (grid0.coords t) d' g) X1 X2 X3 X4 X5 X6 X7 X8 X9 X10 (win0_11.xinj (grid0.coords t) y)
  rw [xinj_eq t y, blockOut_apply, blockOut_apply]
  refine congrArg (fun x => rowOut x _ _ _ _ _ _ _ _ _ _ _) (funext fun e => ?_)
  exact fill_indep t d d' g _ (moved_row t y e)

/-- The body at any point: it reads the eleven input buffers and overwrites the output's with `blockOut` of them; the
    invariant and the core's dues pass through unread. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d)))
    ⊢ wp frame (wpE (defs₀ (F := Ideal)) Variants.none c none) Set.univ (bodyAt0 t) (fun _ =>
      iprop((dats m 0 c).Φ t.succ ∗ (dats m 0 c).owesAt () t.succ
        ∗ (∃ d, owns (c : Thread nD τ) (st0_0 t) fullShare (win0_0.fill (grid0.coords t) d (win0_0.cut (grid0.coords t) ((dats m 0 c).after 0 t))))
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t)
        ∗ owns (c : Thread nD τ) (st0_8 t) fullShare ((dats m 0 c).after 8 t)
        ∗ owns (c : Thread nD τ) (st0_9 t) fullShare ((dats m 0 c).after 9 t)
        ∗ owns (c : Thread nD τ) (st0_10 t) fullShare ((dats m 0 c).after 10 t)
        ∗ (∃ d, owns (c : Thread nD τ) (st0_11 t) fullShare (win0_11.fill (grid0.coords t) d (win0_11.cut (grid0.coords t) ((dats m 0 c).after 11 t)))))) := by
  unfold bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_11, after0_1, after0_2, after0_3, after0_4, after0_5, after0_6, after0_7, after0_8, after0_9, after0_10]
  unfold xfill
  rw [win0_0.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists blockOut (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t)
  rw [win0_11.fill_congr_cut (grid0.coords t) (cut_blockOut_indep t d0 zeroPad (iblk m c 0 t) (iblk m c 1 t) (iblk m c 2 t) (iblk m c 3 t) (iblk m c 4 t) (iblk m c 5 t) (iblk m c 6 t) (iblk m c 7 t) (iblk m c 8 t) (iblk m c 9 t) (iblk m c 10 t))]
  iexact H11

/-- The library's body obligation, at every point. -/
theorem body_obligation (c : Dev nD) :
    BodyObligationLoose (dats m 0 c) (defs₀ (F := Ideal)) Variants.none () Set.univ := fun t => by
  rw [bigSep_W0, bigSep_W0]
  exact sound_body m c t

set_option backward.isDefEq.respectTransparency.types false in
/-- The run: every weakly fair execution terminates without a fault; every array of the pipeline ends at what the library
    computes from the proof data, every other unscoped buffer as the line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the eleven argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  frame_of m ρ (dats m) (A_eq m) (run_main m ρ)

end Cert.KernelIdeal.RunProof

end
-- ==== Proof.ResultSpec.lean ====
/-
  The whole result, index by index: entry (b, s, q) of the 64 x 577 x 768 result is the row function of `RowSpec` at
  the activation row (b, s, ·) and lane q.  Both programs are shown to end at this one array.
-/
import proofs.«115047_j8117488190193_1_alg».proof.Proof.RowSpec

noncomputable section

namespace Cert.RowSpec

open Idealize.ShloMosaic Idealize.ShloMosaic.ValueIdx

/-- Entry `(b, s, q)` of the result, from the eleven argument arrays. -/
def resultAt (a0 : (⟨3, ![64, 577, 3072]⟩ : Shape).Idx → EReal) (a1 : (⟨2, ![768, 3072]⟩ : Shape).Idx → EReal)
    (a2 : (⟨1, ![768]⟩ : Shape).Idx → EReal) (a3 : (⟨1, ![3072]⟩ : Shape).Idx → EReal)
    (a4 a5 a6 a7 a8 a9 a10 : (⟨1, ![768]⟩ : Shape).Idx → EReal) (b : Fin 64) (s : Fin 577) (q : Fin 768) : EReal :=
  rowOut (fun e => a0 (ix3 b s e)) (fun e => a3 (ix1 e)) (fun q e => a1 (ix2 q e)) (fun q => a2 (ix1 q))
    (fun q => a4 (ix1 q)) (fun q => a5 (ix1 q)) (fun q => a6 (ix1 q)) (fun q => a7 (ix1 q)) (fun q => a8 (ix1 q))
    (fun q => a9 (ix1 q)) (fun q => a10 (ix1 q)) q

/-- The result array. -/
def result (a0 : (⟨3, ![64, 577, 3072]⟩ : Shape).Idx → EReal) (a1 : (⟨2, ![768, 3072]⟩ : Shape).Idx → EReal)
    (a2 : (⟨1, ![768]⟩ : Shape).Idx → EReal) (a3 : (⟨1, ![3072]⟩ : Shape).Idx → EReal)
    (a4 a5 a6 a7 a8 a9 a10 : (⟨1, ![768]⟩ : Shape).Idx → EReal) : (⟨3, ![64, 577, 768]⟩ : Shape).Idx → EReal :=
  fun i => resultAt a0 a1 a2 a3 a4 a5 a6 a7 a8 a9 a10 (i 0) (i 1) (i 2)

theorem result_apply (a0 : (⟨3, ![64, 577, 3072]⟩ : Shape).Idx → EReal) (a1 : (⟨2, ![768, 3072]⟩ : Shape).Idx → EReal)
    (a2 : (⟨1, ![768]⟩ : Shape).Idx → EReal) (a3 : (⟨1, ![3072]⟩ : Shape).Idx → EReal)
    (a4 a5 a6 a7 a8 a9 a10 : (⟨1, ![768]⟩ : Shape).Idx → EReal) (b : Fin 64) (s : Fin 577) (q : Fin 768) :
    result a0 a1 a2 a3 a4 a5 a6 a7 a8 a9 a10 (ix3 b s q) = resultAt a0 a1 a2 a3 a4 a5 a6 a7 a8 a9 a10 b s q := rfl

end Cert.RowSpec

end
-- ==== Proof.LibGroupsToRows.lean ====
/-
  Groups of rows flattened: a general layout lemma, the converse of the row-block cast. An `[a, b, d]` array viewed as
  the matrix `[n, d]` of its `n = a * b` rows keeps the row-major order, so row `p * b + q` of the matrix is row `q` of
  group `p`.
-/
import Idealize.ShloMosaic.Lib.Pipeline.Value
import Idealize.ShloMosaic.Lib.ValueIdx

namespace Cert.Layout

open Idealize.ShloMosaic Idealize.ShloMosaic.ValueIdx

/-- An `[a, b, d]` array viewed `[n, d]` (so `n = a * b`) reads, at row `p * b + q` and column `r`, the operand's entry
    `(p, q, r)`. -/
theorem shapeCast_groups_rows_apply {α : Type} {n a b d : ℕ} (x : (⟨3, ![a, b, d]⟩ : Shape).Idx → α)
    (h : (⟨3, ![a, b, d]⟩ : Shape).ShapeCasts ⟨2, ![n, d]⟩) (p : Fin a) (q : Fin b) (r : Fin d)
    (hpq : p.val * b + q.val < n) :
    shapeCast ⟨2, ![n, d]⟩ x h (ix2 ⟨p.val * b + q.val, hpq⟩ r) = x (ix3 p q r) := by
  refine shapeCast_apply x h _ _ ?_
  rw [Shape.rowMajor_val_two, Shape.rowMajor_val_three]
  rfl

end Cert.Layout
-- ==== Proof.ValueIdeal.lean ====
/-
  What the idealized kernel's result array holds after the run: the one array `RowSpec.result` of the arguments.

  Point t writes back the rows of its output block inside the array: rows 256 t … 256 t + 255 (64 rows at the last
  point).  By the body's value at an index, row p of that block is the row function at row 256 t + p of the reshaped
  activations and the reshaped parameters — one whole-array function `rowsOut` read through the block.  The 145
  blocks cover the 36928 rows, so the output array ends at `rowsOut`; the line after the region reshapes it to
  64 x 577 x 768, and the lines before the region are reshapes and a change of float format: row 577 b + s of the
  flat arrays is row (b, s) of the arguments.
-/
import proofs.«115047_j8117488190193_1_alg».proof.Proof.RunIdeal
import proofs.«115047_j8117488190193_1_alg».proof.Proof.ResultSpec
import proofs.«115047_j8117488190193_1_alg».proof.Proof.LibGroupsToRows
import Idealize.ShloMosaic.Lib.StableHlo.Run
import Idealize.ShloMosaic.Lib.ValueLayout

set_option maxRecDepth 16384

noncomputable section

namespace Cert.KernelIdeal.ValueProof

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.RowSpec Cert.KernelIdeal.BlockValue Cert.KernelIdeal.RunProof Idealize.ShloMosaic.ValueIdx Idealize.ShloMosaic.StableHlo

variable (m : (ℓ : Loc nD τ sig) → Buf (Elt Ideal) ℓ) (ρ : Dev nD → PrngReg)

/-! ## The flat output array as one function of the flat input arrays -/

/-- Entry `(r, q)` of the flat output: the row function at row `r` of the flat activations. -/
def rowsOutAt (c : Dev nD) (r : Fin 36928) (q : Fin 768) : Elt Ideal .f32 :=
  rowOut (fun e => V m c main_v0 (ix2 r e)) (fun e => V m c main_v2 (ix2 (0 : Fin 1) e)) (fun q e => V m c main_v1 (ix2 q e)) (fun q => V m c main_v3 (ix2 (0 : Fin 1) q)) (fun q => V m c main_v4 (ix2 (0 : Fin 1) q)) (fun q => V m c main_v5 (ix2 (0 : Fin 1) q)) (fun q => V m c main_v6 (ix2 (0 : Fin 1) q)) (fun q => V m c main_v7 (ix2 (0 : Fin 1) q)) (fun q => V m c main_v8 (ix2 (0 : Fin 1) q)) (fun q => V m c main_v9 (ix2 (0 : Fin 1) q)) (fun q => V m c main_v10 (ix2 (0 : Fin 1) q)) q

def rowsOut (c : Dev nD) : S36928x768.Idx → Elt Ideal .f32 := fun i => rowsOutAt m c (i 0) (i 1)

/-- The printed index maps, decided over the grid: the activation window moves with the output window along the rows,
    neither moves along the lanes, and the resident windows do not move. -/
theorem idx_facts : ∀ t : Fin cfg0.N, win0_0.index t (0 : Fin 2) = win0_11.index t (0 : Fin 2)
    ∧ win0_0.index t (1 : Fin 2) = 0 ∧ win0_11.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The output window's blocks: block `t` starts at row `256 t`, spans the lanes, and has the rows up to the array's end. -/
theorem out_facts : ∀ t : Fin cfg0.N, win0_11.index t (0 : Fin 2) = t.val ∧ win0_11.index t (1 : Fin 2) = 0
    ∧ t.val * 256 + win0_11.xsize (grid0.coords t) (0 : Fin 2) = min (t.val * 256 + 256) 36928
    ∧ win0_11.xsize (grid0.coords t) (1 : Fin 2) = 768 :=
  (by decide +kernel : ∀ t : Fin grid0.N, _)

/-- A moved row of the zero-filled activation block is that row of the flat activations. -/
theorem xfill_row (c : Dev nD) (t : Fin cfg0.N) (y : (win0_11.xblock (grid0.coords t)).Idx) (e : Fin 3072) :
    xfill m c t (ix2 (rowOf t y) e) = V m c main_v0 (ix2 ((((cfg0.win 11).blk t).view.emb y) 0) e) := by
  obtain ⟨e0, e1, e2, -⟩ := idx_facts t
  unfold xfill Window.fill
  rw [dif_pos (moved_row t y e)]
  show V m c main_v0 (((cfg0.win 0).blk t).view.emb _) = V m c main_v0 _
  refine congrArg (V m c main_v0 : S36928x3072.Idx → Elt Ideal .f32) (funext fun a => Fin.ext ?_)
  match a with
  | ⟨0, _⟩ => show win0_0.index t (0 : Fin 2) * 256 + 1 * (y 0).val = win0_11.index t (0 : Fin 2) * 256 + 1 * (y 0).val; rw [e0]
  | ⟨1, _⟩ => show win0_0.index t (1 : Fin 2) * 3072 + 1 * e.val = e.val; rw [e1]; omega

theorem iblk1_apply (c : Dev nD) (t : Fin cfg0.N) (q : Fin 768) (e : Fin 3072) :
    iblk m c 1 t (ix2 q e) = V m c main_v1 (ix2 q e) := by
  have h := idx_facts t
  show V m c main_v1 (((cfg0.win 1).blk t).view.emb (ix2 q e)) = V m c main_v1 _
  refine congrArg (V m c main_v1 : S768x3072.Idx → Elt Ideal .bf16) (funext fun a => Fin.ext ?_)
  match a with
  | ⟨0, _⟩ => show win0_1.index t (0 : Fin 2) * 768 + 1 * q.val = q.val; rw [h.2.2.2.1]; omega
  | ⟨1, _⟩ => show win0_1.index t (1 : Fin 2) * 3072 + 1 * e.val = e.val; rw [h.2.2.2.2.1]; omega

theorem iblk2_apply (c : Dev nD) (t : Fin cfg0.N) (e : Fin 3072) :
    iblk m c 2 t (ix2 (0 : Fin 1) e) = V m c main_v2 (ix2 (0 : Fin 1) e) := by
  have h := idx_facts t
  show V m c main_v2 (((cfg0.win 2).blk t).view.emb (ix2 (0 : Fin 1) e)) = V m c main_v2 _
  refine congrArg (V m c main_v2 : S1x3072.Idx → Elt Ideal .f32) (funext fun a => Fin.ext ?_)
  match a with
  | ⟨0, _⟩ => show win0_2.index t (0 : Fin 2) * 1 + 1 * 0 = 0; rw [h.2.2.2.2.2.1]
  | ⟨1, _⟩ => show win0_2.index t (1 : Fin 2) * 3072 + 1 * e.val = e.val; rw [h.2.2.2.2.2.2.1]; omega

theorem iblk3_apply (c : Dev nD) (t : Fin cfg0.N) (q : Fin 768) :
    iblk m c 3 t (ix2 (0 : Fin 1) q) = V m c main_v3 (ix2 (0 : Fin 1) q) := by
  have h := idx_facts t
  show V m c main_v3 (((cfg0.win 3).blk t).view.emb (ix2 (0 : Fin 1) q)) = V m c main_v3 _
  refine congrArg (V m c main_v3 : S1x768.Idx → Elt Ideal .f32) (funext fun a => Fin.ext ?_)
  match a with
  | ⟨0, _⟩ => show win0_3.index t (0 : Fin 2) * 1 + 1 * 0 = 0; rw [h.2.2.2.2.2.2.2.1]
  | ⟨1, _⟩ => show win0_3.index t (1 : Fin 2) * 768 + 1 * q.val = q.val; rw [h.2.2.2.2.2.2.2.2.1]; omega

theorem iblk4_apply (c : Dev nD) (t : Fin cfg0.N) (q : Fin 768) :
    iblk m c 4 t (ix2 (0 : Fin 1) q) = V m c main_v4 (ix2 (0 : Fin 1) q) := by
  have h := idx_facts t
  show V m c main_v4 (((cfg0.win 4).blk t).view.emb (ix2 (0 : Fin 1) q)) = V m c main_v4 _
  refine congrArg (V m c main_v4 : S1x768.Idx → Elt Ideal .f32) (funext fun a => Fin.ext ?_)
  match a with
  | ⟨0, _⟩ => show win0_4.index t (0 : Fin 2) * 1 + 1 * 0 = 0; rw [h.2.2.2.2.2.2.2.2.2.1]
  | ⟨1, _⟩ => show win0_4.index t (1 : Fin 2) * 768 + 1 * q.val = q.val; rw [h.2.2.2.2.2.2.2.2.2.2.1]; omega

theorem iblk5_apply (c : Dev nD) (t : Fin cfg0.N) (q : Fin 768) :
    iblk m c 5 t (ix2 (0 : Fin 1) q) = V m c main_v5 (ix2 (0 : Fin 1) q) := by
  have h := idx_facts t
  show V m c main_v5 (((cfg0.win 5).blk t).view.emb (ix2 (0 : Fin 1) q)) = V m c main_v5 _
  refine congrArg (V m c main_v5 : S1x768.Idx → Elt Ideal .f32) (funext fun a => Fin.ext ?_)
  match a with
  | ⟨0, _⟩ => show win0_5.index t (0 : Fin 2) * 1 + 1 * 0 = 0; rw [h.2.2.2.2.2.2.2.2.2.2.2.1]
  | ⟨1, _⟩ => show win0_5.index t (1 : Fin 2) * 768 + 1 * q.val = q.val; rw [h.2.2.2.2.2.2.2.2.2.2.2.2.1]; omega

theorem iblk6_apply (c : Dev nD) (t : Fin cfg0.N) (q : Fin 768) :
    iblk m c 6 t (ix2 (0 : Fin 1) q) = V m c main_v6 (ix2 (0 : Fin 1) q) := by
  have h := idx_facts t
  show V m c main_v6 (((cfg0.win 6).blk t).view.emb (ix2 (0 : Fin 1) q)) = V m c main_v6 _
  refine congrArg (V m c main_v6 : S1x768.Idx → Elt Ideal .f32) (funext fun a => Fin.ext ?_)
  match a with
  | ⟨0, _⟩ => show win0_6.index t (0 : Fin 2) * 1 + 1 * 0 = 0; rw [h.2.2.2.2.2.2.2.2.2.2.2.2.2.1]
  | ⟨1, _⟩ => show win0_6.index t (1 : Fin 2) * 768 + 1 * q.val = q.val; rw [h.2.2.2.2.2.2.2.2.2.2.2.2.2.2.1]; omega

theorem iblk7_apply (c : Dev nD) (t : Fin cfg0.N) (q : Fin 768) :
    iblk m c 7 t (ix2 (0 : Fin 1) q) = V m c main_v7 (ix2 (0 : Fin 1) q) := by
  have h := idx_facts t
  show V m c main_v7 (((cfg0.win 7).blk t).view.emb (ix2 (0 : Fin 1) q)) = V m c main_v7 _
  refine congrArg (V m c main_v7 : S1x768.Idx → Elt Ideal .f32) (funext fun a => Fin.ext ?_)
  match a with
  | ⟨0, _⟩ => show win0_7.index t (0 : Fin 2) * 1 + 1 * 0 = 0; rw [h.2.2.2.2.2.2.2.2.2.2.2.2.2.2.2.1]
  | ⟨1, _⟩ => show win0_7.index t (1 : Fin 2) * 768 + 1 * q.val = q.val; rw [h.2.2.2.2.2.2.2.2.2.2.2.2.2.2.2.2.1]; omega

theorem iblk8_apply (c : Dev nD) (t : Fin cfg0.N) (q : Fin 768) :
    iblk m c 8 t (ix2 (0 : Fin 1) q) = V m c main_v8 (ix2 (0 : Fin 1) q) := by
  have h := idx_facts t
  show V m c main_v8 (((cfg0.win 8).blk t).view.emb (ix2 (0 : Fin 1) q)) = V m c main_v8 _
  refine congrArg (V m c main_v8 : S1x768.Idx → Elt Ideal .f32) (funext fun a => Fin.ext ?_)
  match a with
  | ⟨0, _⟩ => show win0_8.index t (0 : Fin 2) * 1 + 1 * 0 = 0; rw [h.2.2.2.2.2.2.2.2.2.2.2.2.2.2.2.2.2.1]
  | ⟨1, _⟩ => show win0_8.index t (1 : Fin 2) * 768 + 1 * q.val = q.val; rw [h.2.2.2.2.2.2.2.2.2.2.2.2.2.2.2.2.2.2.1]; omega

theorem iblk9_apply (c : Dev nD) (t : Fin cfg0.N) (q : Fin 768) :
    iblk m c 9 t (ix2 (0 : Fin 1) q) = V m c main_v9 (ix2 (0 : Fin 1) q) := by
  have h := idx_facts t
  show V m c main_v9 (((cfg0.win 9).blk t).view.emb (ix2 (0 : Fin 1) q)) = V m c main_v9 _
  refine congrArg (V m c main_v9 : S1x768.Idx → Elt Ideal .f32) (funext fun a => Fin.ext ?_)
  match a with
  | ⟨0, _⟩ => show win0_9.index t (0 : Fin 2) * 1 + 1 * 0 = 0; rw [h.2.2.2.2.2.2.2.2.2.2.2.2.2.2.2.2.2.2.2.1]
  | ⟨1, _⟩ => show win0_9.index t (1 : Fin 2) * 768 + 1 * q.val = q.val; rw [h.2.2.2.2.2.2.2.2.2.2.2.2.2.2.2.2.2.2.2.2.1]; omega

theorem iblk10_apply (c : Dev nD) (t : Fin cfg0.N) (q : Fin 768) :
    iblk m c 10 t (ix2 (0 : Fin 1) q) = V m c main_v10 (ix2 (0 : Fin 1) q) := by
  have h := idx_facts t
  show V m c main_v10 (((cfg0.win 10).blk t).view.emb (ix2 (0 : Fin 1) q)) = V m c main_v10 _
  refine congrArg (V m c main_v10 : S1x768.Idx → Elt Ideal .f32) (funext fun a => Fin.ext ?_)
  match a with
  | ⟨0, _⟩ => show win0_10.index t (0 : Fin 2) * 1 + 1 * 0 = 0; rw [h.2.2.2.2.2.2.2.2.2.2.2.2.2.2.2.2.2.2.2.2.2.1]
  | ⟨1, _⟩ => show win0_10.index t (1 : Fin 2) * 768 + 1 * q.val = q.val; rw [h.2.2.2.2.2.2.2.2.2.2.2.2.2.2.2.2.2.2.2.2.2.2]; omega

/-- What point `t` writes back is block `t` of `rowsOut`. -/
theorem flushed_eq (c : Dev nD) (t : Fin cfg0.N) :
    (dats m 0 c).flushed 11 t = ((cfg0.win 11).blk t).view.read (Elt Ideal) (rowsOut m c) := by
  show (cfg0.win 11).cut (grid0.coords t) ((dats m 0 c).after 11 t) = _
  rw [after0_11]
  funext y
  show blockOut (xfill m c t) (iblk m c 1 t) (iblk m c 2 t) (iblk m c 3 t) (iblk m c 4 t) (iblk m c 5 t) (iblk m c 6 t) (iblk m c 7 t) (iblk m c 8 t) (iblk m c 9 t) (iblk m c 10 t) (win0_11.xinj (grid0.coords t) y)
    = rowsOutAt m c ((((cfg0.win 11).blk t).view.emb y) 0) ((((cfg0.win 11).blk t).view.emb y) 1)
  rw [xinj_eq t y, blockOut_apply]
  have hq : ((((cfg0.win 11).blk t).view.emb y) 1 : Fin 768) = colOf t y := Fin.ext (by
    show win0_11.index t (1 : Fin 2) * 768 + 1 * (y 1).val = (y 1).val
    rw [(idx_facts t).2.2.1]; omega)
  rw [hq]
  unfold rowsOutAt
  simp only [xfill_row, iblk1_apply, iblk2_apply, iblk3_apply, iblk4_apply, iblk5_apply, iblk6_apply, iblk7_apply, iblk8_apply, iblk9_apply, iblk10_apply]

/-! ## The blocks cover the array -/

/-- An index of the flat output is in point `t`'s block iff each coordinate is in the block's range on its axis. -/
theorem mem_blk (t : Fin cfg0.N) (i : S36928x768.Idx) :
    i ∈ ((cfg0.win 11).blk t).view.set ↔ ∀ a : Fin 2, win0_11.index t a * S256x768.size a ≤ (i a).val
      ∧ (i a).val < win0_11.index t a * S256x768.size a + win0_11.xsize (grid0.coords t) a := by
  show i ∈ ((View.whole main_v11).slice (win0_11.rect t)).set ↔ _
  rw [View.set_slice_whole, Rect.mem_set_unit]
  exact Iff.rfl

/-- Row `r` of the flat output is in the block of point `r / 256`. -/
theorem cover (i : S36928x768.Idx) :
    ∃ t : Fin cfg0.N, (cfg0.win 11).flush t = true ∧ i ∈ ((cfg0.win 11).blk t).view.set := by
  have hi0 : (i 0).val < 36928 := (i 0).isLt
  have hi1 : (i 1).val < 768 := (i 1).isLt
  have hN : grid0.N = 145 := N_0
  have ht : (i 0).val / 256 < cfg0.N := by show (i 0).val / 256 < grid0.N; rw [hN]; omega
  refine ⟨⟨(i 0).val / 256, ht⟩, flush0_11 _, ?_⟩
  rw [mem_blk]
  obtain ⟨f0, f1, f2, f3⟩ := out_facts ⟨(i 0).val / 256, ht⟩
  intro a
  match a with
  | ⟨0, _⟩ =>
    show win0_11.index ⟨(i 0).val / 256, ht⟩ (0 : Fin 2) * 256 ≤ (i 0).val
      ∧ (i 0).val < win0_11.index ⟨(i 0).val / 256, ht⟩ (0 : Fin 2) * 256 + win0_11.xsize (grid0.coords ⟨(i 0).val / 256, ht⟩) (0 : Fin 2)
    have f0' : win0_11.index ⟨(i 0).val / 256, ht⟩ (0 : Fin 2) = (i 0).val / 256 := f0
    have f2' : (i 0).val / 256 * 256 + win0_11.xsize (grid0.coords ⟨(i 0).val / 256, ht⟩) (0 : Fin 2) = min ((i 0).val / 256 * 256 + 256) 36928 := f2
    rw [f0']
    omega
  | ⟨1, _⟩ =>
    show win0_11.index ⟨(i 0).val / 256, ht⟩ (1 : Fin 2) * 768 ≤ (i 1).val
      ∧ (i 1).val < win0_11.index ⟨(i 0).val / 256, ht⟩ (1 : Fin 2) * 768 + win0_11.xsize (grid0.coords ⟨(i 0).val / 256, ht⟩) (1 : Fin 2)
    rw [f1, f3]; omega

/-- The flat output array after the run. -/
theorem final11 (c : Dev nD) : (dats m 0 c).arrAt 11 cfg0.N = rowsOut m c :=
  (dats m 0 c).arrAt_eq_of_cover 11 (rowsOut m c) (fun t _ => flushed_eq m c t) cover

/-! ## The host lines before the region: the flat arrays from the arguments -/

theorem V_v0 (c : Dev nD) : (V m c main_v0 : S36928x3072.Idx → Elt Ideal .f32)
    = shapeCast S36928x3072 (m ((c.tc : Thread nD τ).loc main_arg0)) Facts₀.shapeCasts_S64x577x3072_S36928x3072 := by
  show StableHlo.after hostOps0 (fun b => m (c, b)) (Proc.devRef .tc main_v0) = _
  after_results
  rfl

theorem V_v1 (c : Dev nD) : (V m c main_v1 : S768x3072.Idx → Elt Ideal .bf16)
    = (truncf .bf16 (m ((c.tc : Thread nD τ).loc main_arg1) : FVec Ideal S768x3072 .f32) Facts₀.bitsLt_bf16_f32 : FVec Ideal S768x3072 .bf16) := by
  show StableHlo.after hostOps0 (fun b => m (c, b)) (Proc.devRef .tc main_v1) = _
  after_results

theorem V_v2 (c : Dev nD) : (V m c main_v2 : S1x3072.Idx → Elt Ideal .f32)
    = shapeCast S1x3072 (m ((c.tc : Thread nD τ).loc main_arg3)) Facts₀.shapeCasts_S3072_S1x3072 := by
  show StableHlo.after hostOps0 (fun b => m (c, b)) (Proc.devRef .tc main_v2) = _
  after_results
  rfl

theorem V_v3 (c : Dev nD) : (V m c main_v3 : S1x768.Idx → Elt Ideal .f32)
    = shapeCast S1x768 (m ((c.tc : Thread nD τ).loc main_arg2)) Facts₀.shapeCasts_S768_S1x768 := by
  show StableHlo.after hostOps0 (fun b => m (c, b)) (Proc.devRef .tc main_v3) = _
  after_results
  rfl

theorem V_v4 (c : Dev nD) : (V m c main_v4 : S1x768.Idx → Elt Ideal .f32)
    = shapeCast S1x768 (m ((c.tc : Thread nD τ).loc main_arg4)) Facts₀.shapeCasts_S768_S1x768 := by
  show StableHlo.after hostOps0 (fun b => m (c, b)) (Proc.devRef .tc main_v4) = _
  after_results
  rfl

theorem V_v5 (c : Dev nD) : (V m c main_v5 : S1x768.Idx → Elt Ideal .f32)
    = shapeCast S1x768 (m ((c.tc : Thread nD τ).loc main_arg5)) Facts₀.shapeCasts_S768_S1x768 := by
  show StableHlo.after hostOps0 (fun b => m (c, b)) (Proc.devRef .tc main_v5) = _
  after_results
  rfl

theorem V_v6 (c : Dev nD) : (V m c main_v6 : S1x768.Idx → Elt Ideal .f32)
    = shapeCast S1x768 (m ((c.tc : Thread nD τ).loc main_arg6)) Facts₀.shapeCasts_S768_S1x768 := by
  show StableHlo.after hostOps0 (fun b => m (c, b)) (Proc.devRef .tc main_v6) = _
  after_results
  rfl

theorem V_v7 (c : Dev nD) : (V m c main_v7 : S1x768.Idx → Elt Ideal .f32)
    = shapeCast S1x768 (m ((c.tc : Thread nD τ).loc main_arg7)) Facts₀.shapeCasts_S768_S1x768 := by
  show StableHlo.after hostOps0 (fun b => m (c, b)) (Proc.devRef .tc main_v7) = _
  after_results
  rfl

theorem V_v8 (c : Dev nD) : (V m c main_v8 : S1x768.Idx → Elt Ideal .f32)
    = shapeCast S1x768 (m ((c.tc : Thread nD τ).loc main_arg8)) Facts₀.shapeCasts_S768_S1x768 := by
  show StableHlo.after hostOps0 (fun b => m (c, b)) (Proc.devRef .tc main_v8) = _
  after_results
  rfl

theorem V_v9 (c : Dev nD) : (V m c main_v9 : S1x768.Idx → Elt Ideal .f32)
    = shapeCast S1x768 (m ((c.tc : Thread nD τ).loc main_arg9)) Facts₀.shapeCasts_S768_S1x768 := by
  show StableHlo.after hostOps0 (fun b => m (c, b)) (Proc.devRef .tc main_v9) = _
  after_results
  rfl

theorem V_v10 (c : Dev nD) : (V m c main_v10 : S1x768.Idx → Elt Ideal .f32)
    = shapeCast S1x768 (m ((c.tc : Thread nD τ).loc main_arg10)) Facts₀.shapeCasts_S768_S1x768 := by
  show StableHlo.after hostOps0 (fun b => m (c, b)) (Proc.devRef .tc main_v10) = _
  after_results
  rfl

/-- Row `577 b + s` of the flat output is row `(b, s)` of the result. -/
theorem rowsOutAt_eq (c : Dev nD) (b : Fin 64) (s : Fin 577) (q : Fin 768) (h : b.val * 577 + s.val < 36928) :
    rowsOutAt m c ⟨b.val * 577 + s.val, h⟩ q
      = resultAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) b s q := by
  unfold rowsOutAt resultAt
  rw [V_v0, V_v1, V_v2, V_v3, V_v4, V_v5, V_v6, V_v7, V_v8, V_v9, V_v10]
  simp only [Cert.Layout.shapeCast_groups_rows_apply, shapeCast_a_1a_apply, truncf_apply]

/-! ## The line after the region, and the run -/

/-- The result buffer after the line that follows the region: the flat output viewed 64 x 577 x 768. -/
theorem tail_v12 (c : Dev nD) :
    Pipeline.afterTail₀ cfgs (dats m) 0 (V0 m) [hostOps1] c main_v12
      = shapeCast S64x577x768 (rowsOut m c) Facts₀.shapeCasts_S36928x768_S64x577x768 := by
  unfold Pipeline.afterTail₀
  show StableHlo.after hostOps1 _ (Proc.devRef .tc main_v12) = _
  after_results
  exact congrArg (fun z : S36928x768.Idx → Elt Ideal .f32 => shapeCast S64x577x768 z Facts₀.shapeCasts_S36928x768_S64x577x768)
    ((Pipeline.withArrays_arr spec0 launch0.win.arr_inj c _ _ 11).trans (final11 m c))

/-- The result array is `RowSpec.result` of the arguments. -/
theorem result_eq (c : Dev nD) :
    Pipeline.afterTail₀ cfgs (dats m) 0 (V0 m) [hostOps1] c main_v12
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [tail_v12]
  funext i
  obtain ⟨b, s, q, rfl⟩ : ∃ (b : Fin 64) (s : Fin 577) (q : Fin 768), i = ix3 b s q := ⟨i 0, i 1, i 2, eq_ix3 i⟩
  have h : b.val * 577 + s.val < 36928 := by have := b.isLt; have := s.isLt; omega
  rw [result_apply]
  refine (Cert.LibRank3.shapeCast_rows_apply (rowsOut m c) _ b s q h).trans ?_
  exact rowsOutAt_eq m c b s q h

/-- The idealized kernel's run: it terminates without a fault, the result array ends at `RowSpec.result` of the
    arguments, and the arguments end as launched. -/
theorem run : θ_run defs (onTc (τ := τ) (main (F := Ideal))) ⟨m, fun _ => 0, ρ⟩ (fun r => ∀ c : Dev nD,
      r.2.mem ((c.tc : Thread nD τ).loc main_v12) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v12 (Pipeline.mem_restRefs_of main_v12 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.ValueProof

end
-- ==== Proof.RefValue.lean ====
/-
  The reference's result, stage by stage, is `RowSpec.result` of the arguments.

  Each stage of the reference is read at an index from its operands at an index (the generated read-at-an-index
  lemmas); a broadcast of a parameter vector reads the vector at the lane; the contraction is a sum over the 3072
  lanes of the shifted activation row against a weight row; each reduction is zero plus the sum over its axis; the
  group reshape of the activations puts lane 4 q + k of a row at (q, k).  Put together, entry (b, s, q) is the row
  function at activation row (b, s) and lane q.
-/
import proofs.«115047_j8117488190193_1_alg».proof.Proof.Gen.ReferenceIdeal.Read
import proofs.«115047_j8117488190193_1_alg».proof.Proof.ResultSpec

set_option maxRecDepth 16384

noncomputable section

namespace Cert.ReferenceIdeal.RefValue

open Cert.ReferenceIdeal Cert.ReferenceIdeal.Read Cert.RowSpec
open Idealize.ShloMosaic Idealize.ShloMosaic.ValueIdx

/-! ## A parameter vector broadcast over the result -/

theorem v5_at (x2 : (⟨S768, .f32⟩ : BufTy).Contents (Elt Ideal)) (b : Fin 64) (s : Fin 577) (q : Fin 768) :
    val_main_v5 (F := Ideal) x2 (ix3 b s q) = x2 (ix1 q) := by
  rw [val_main_v5_apply, val_main_v4_apply]
  exact congrArg x2 (funext fun a => Fin.ext (by match a with | ⟨0, _⟩ => rfl))

theorem v30_at (x4 : (⟨S768, .f32⟩ : BufTy).Contents (Elt Ideal)) (b : Fin 64) (s : Fin 577) (q : Fin 768) :
    val_main_v30 (F := Ideal) x4 (ix3 b s q) = x4 (ix1 q) := by
  rw [val_main_v30_apply, val_main_v29_apply]
  exact congrArg x4 (funext fun a => Fin.ext (by match a with | ⟨0, _⟩ => rfl))

theorem v33_at (x5 : (⟨S768, .f32⟩ : BufTy).Contents (Elt Ideal)) (b : Fin 64) (s : Fin 577) (q : Fin 768) :
    val_main_v33 (F := Ideal) x5 (ix3 b s q) = x5 (ix1 q) := by
  rw [val_main_v33_apply, val_main_v32_apply]
  exact congrArg x5 (funext fun a => Fin.ext (by match a with | ⟨0, _⟩ => rfl))

theorem v37_at (x6 : (⟨S768, .f32⟩ : BufTy).Contents (Elt Ideal)) (b : Fin 64) (s : Fin 577) (q : Fin 768) :
    val_main_v37 (F := Ideal) x6 (ix3 b s q) = x6 (ix1 q) := by
  rw [val_main_v37_apply, val_main_v36_apply]
  exact congrArg x6 (funext fun a => Fin.ext (by match a with | ⟨0, _⟩ => rfl))

theorem v42_at (x7 : (⟨S768, .f32⟩ : BufTy).Contents (Elt Ideal)) (b : Fin 64) (s : Fin 577) (q : Fin 768) :
    val_main_v42 (F := Ideal) x7 (ix3 b s q) = x7 (ix1 q) := by
  rw [val_main_v42_apply, val_main_v41_apply]
  exact congrArg x7 (funext fun a => Fin.ext (by match a with | ⟨0, _⟩ => rfl))

theorem v46_at (x8 : (⟨S768, .f32⟩ : BufTy).Contents (Elt Ideal)) (b : Fin 64) (s : Fin 577) (q : Fin 768) :
    val_main_v46 (F := Ideal) x8 (ix3 b s q) = x8 (ix1 q) := by
  rw [val_main_v46_apply, val_main_v45_apply]
  exact congrArg x8 (funext fun a => Fin.ext (by match a with | ⟨0, _⟩ => rfl))

theorem v49_at (x9 : (⟨S768, .f32⟩ : BufTy).Contents (Elt Ideal)) (b : Fin 64) (s : Fin 577) (q : Fin 768) :
    val_main_v49 (F := Ideal) x9 (ix3 b s q) = x9 (ix1 q) := by
  rw [val_main_v49_apply, val_main_v48_apply]
  exact congrArg x9 (funext fun a => Fin.ext (by match a with | ⟨0, _⟩ => rfl))

theorem v52_at (x10 : (⟨S768, .f32⟩ : BufTy).Contents (Elt Ideal)) (b : Fin 64) (s : Fin 577) (q : Fin 768) :
    val_main_v52 (F := Ideal) x10 (ix3 b s q) = x10 (ix1 q) := by
  rw [val_main_v52_apply, val_main_v51_apply]
  exact congrArg x10 (funext fun a => Fin.ext (by match a with | ⟨0, _⟩ => rfl))

/-! ## The dense row -/

theorem v2_at (x0 : (⟨S64x577x3072, .f32⟩ : BufTy).Contents (Elt Ideal)) (x3 : (⟨S3072, .f32⟩ : BufTy).Contents (Elt Ideal))
    (b : Fin 64) (s : Fin 577) (k : Fin 3072) :
    val_main_v2 (F := Ideal) x0 x3 (ix3 b s k) = x0 (ix3 b s k) + x3 (ix1 k) := by
  rw [val_main_v2_apply, val_main_v1_apply, val_main_v0_apply]
  exact congrArg (x0 (ix3 b s k) + ·) (congrArg x3 (funext fun a => Fin.ext (by match a with | ⟨0, _⟩ => rfl)))

theorem v6_at (x0 : (⟨S64x577x3072, .f32⟩ : BufTy).Contents (Elt Ideal)) (x1 : (⟨S768x3072, .f32⟩ : BufTy).Contents (Elt Ideal)) (x2 : (⟨S768, .f32⟩ : BufTy).Contents (Elt Ideal)) (x3 : (⟨S3072, .f32⟩ : BufTy).Contents (Elt Ideal)) (b : Fin 64) (s : Fin 577) (q : Fin 768) :
    val_main_v6 (F := Ideal) x0 x1 x2 x3 (ix3 b s q) = dense (fun e => x0 (ix3 b s e)) (fun e => x3 (ix1 e)) (fun q e => x1 (ix2 q e)) (fun q => x2 (ix1 q)) q := by
  rw [val_main_v6_apply, val_main_v3_apply, v5_at]
  unfold dense
  refine congrArg (· + x2 (ix1 q)) (Finset.sum_congr rfl fun k _ => ?_)
  have hl : lidx_main_v3 (ix3 b s q) k = ix3 b s k := funext fun a => Fin.ext (by match a with | ⟨0, _⟩ => rfl | ⟨1, _⟩ => rfl | ⟨2, _⟩ => rfl)
  have hr : ridx_main_v3 (ix3 b s q) k = ix2 q k := funext fun a => Fin.ext (by match a with | ⟨0, _⟩ => rfl | ⟨1, _⟩ => rfl)
  rw [hl, hr, v2_at]

/-! ## The row statistics -/

theorem v14_at (x0 : (⟨S64x577x3072, .f32⟩ : BufTy).Contents (Elt Ideal)) (x1 : (⟨S768x3072, .f32⟩ : BufTy).Contents (Elt Ideal)) (x2 : (⟨S768, .f32⟩ : BufTy).Contents (Elt Ideal)) (x3 : (⟨S3072, .f32⟩ : BufTy).Contents (Elt Ideal)) (b : Fin 64) (s : Fin 577) (z : Fin 1) :
    val_main_v14 (F := Ideal) x0 x1 x2 x3 (ix3 b s z) = mean (dense (fun e => x0 (ix3 b s e)) (fun e => x3 (ix1 e)) (fun q e => x1 (ix2 q e)) (fun q => x2 (ix1 q))) := by
  rw [val_main_v14_apply, val_main_v12_apply, val_main_v13_apply, val_main_cst_2_apply, val_main_v11_apply, val_main_cst_1_apply]
  unfold mean
  refine congrArg (fun y => Ideal.div y (Ideal.ofBits .f32 0x44400000#32)) ?_
  refine (congrArg (· + _) Ideal.ofBits_zero_f32).trans ((zero_add _).trans (Finset.sum_congr rfl fun k _ => ?_))
  have hk : idx_main_v11 (idx_main_v12 (ix3 b s z)) k = ix3 b s k := funext fun a => Fin.ext (by match a with | ⟨0, _⟩ => rfl | ⟨1, _⟩ => rfl | ⟨2, _⟩ => rfl)
  rw [hk, v6_at]

theorem v16_at (x0 : (⟨S64x577x3072, .f32⟩ : BufTy).Contents (Elt Ideal)) (x1 : (⟨S768x3072, .f32⟩ : BufTy).Contents (Elt Ideal)) (x2 : (⟨S768, .f32⟩ : BufTy).Contents (Elt Ideal)) (x3 : (⟨S3072, .f32⟩ : BufTy).Contents (Elt Ideal)) (b : Fin 64) (s : Fin 577) (q : Fin 768) :
    val_main_v16 (F := Ideal) x0 x1 x2 x3 (ix3 b s q) = dense (fun e => x0 (ix3 b s e)) (fun e => x3 (ix1 e)) (fun q e => x1 (ix2 q e)) (fun q => x2 (ix1 q)) q - mean (dense (fun e => x0 (ix3 b s e)) (fun e => x3 (ix1 e)) (fun q e => x1 (ix2 q e)) (fun q => x2 (ix1 q))) := by
  rw [val_main_v16_apply, val_main_v15_apply, v6_at]
  have hk : idx_main_v15 (ix3 b s q) = ix3 b s (0 : Fin 1) := funext fun a => Fin.ext (by match a with | ⟨0, _⟩ => rfl | ⟨1, _⟩ => rfl | ⟨2, _⟩ => rfl)
  rw [hk, v14_at]; rfl

theorem v23_at (x0 : (⟨S64x577x3072, .f32⟩ : BufTy).Contents (Elt Ideal)) (x1 : (⟨S768x3072, .f32⟩ : BufTy).Contents (Elt Ideal)) (x2 : (⟨S768, .f32⟩ : BufTy).Contents (Elt Ideal)) (x3 : (⟨S3072, .f32⟩ : BufTy).Contents (Elt Ideal)) (b : Fin 64) (s : Fin 577) (q : Fin 768) :
    val_main_v23 (F := Ideal) x0 x1 x2 x3 (ix3 b s q) = dense (fun e => x0 (ix3 b s e)) (fun e => x3 (ix1 e)) (fun q e => x1 (ix2 q e)) (fun q => x2 (ix1 q)) q - mean (dense (fun e => x0 (ix3 b s e)) (fun e => x3 (ix1 e)) (fun q e => x1 (ix2 q e)) (fun q => x2 (ix1 q))) := by
  rw [val_main_v23_apply, val_main_v22_apply, v6_at]
  have hk : idx_main_v22 (ix3 b s q) = ix3 b s (0 : Fin 1) := funext fun a => Fin.ext (by match a with | ⟨0, _⟩ => rfl | ⟨1, _⟩ => rfl | ⟨2, _⟩ => rfl)
  rw [hk, v14_at]; rfl

theorem v21_at (x0 : (⟨S64x577x3072, .f32⟩ : BufTy).Contents (Elt Ideal)) (x1 : (⟨S768x3072, .f32⟩ : BufTy).Contents (Elt Ideal)) (x2 : (⟨S768, .f32⟩ : BufTy).Contents (Elt Ideal)) (x3 : (⟨S3072, .f32⟩ : BufTy).Contents (Elt Ideal)) (b : Fin 64) (s : Fin 577) (z : Fin 1) :
    val_main_v21 (F := Ideal) x0 x1 x2 x3 (ix3 b s z) = variance (dense (fun e => x0 (ix3 b s e)) (fun e => x3 (ix1 e)) (fun q e => x1 (ix2 q e)) (fun q => x2 (ix1 q))) := by
  rw [val_main_v21_apply, val_main_v19_apply, val_main_v20_apply, val_main_cst_4_apply, val_main_v18_apply, val_main_cst_3_apply]
  unfold variance
  refine congrArg (fun y => Ideal.div y (Ideal.ofBits .f32 0x44400000#32)) ?_
  refine (congrArg (· + _) Ideal.ofBits_zero_f32).trans ((zero_add _).trans (Finset.sum_congr rfl fun k _ => ?_))
  have hk : idx_main_v18 (idx_main_v19 (ix3 b s z)) k = ix3 b s k := funext fun a => Fin.ext (by match a with | ⟨0, _⟩ => rfl | ⟨1, _⟩ => rfl | ⟨2, _⟩ => rfl)
  rw [hk, val_main_v17_apply, v16_at]; rfl

theorem v28_at (x0 : (⟨S64x577x3072, .f32⟩ : BufTy).Contents (Elt Ideal)) (x1 : (⟨S768x3072, .f32⟩ : BufTy).Contents (Elt Ideal)) (x2 : (⟨S768, .f32⟩ : BufTy).Contents (Elt Ideal)) (x3 : (⟨S3072, .f32⟩ : BufTy).Contents (Elt Ideal)) (b : Fin 64) (s : Fin 577) (q : Fin 768) :
    val_main_v28 (F := Ideal) x0 x1 x2 x3 (ix3 b s q)
      = (dense (fun e => x0 (ix3 b s e)) (fun e => x3 (ix1 e)) (fun q e => x1 (ix2 q e)) (fun q => x2 (ix1 q)) q - mean (dense (fun e => x0 (ix3 b s e)) (fun e => x3 (ix1 e)) (fun q e => x1 (ix2 q e)) (fun q => x2 (ix1 q)))) * Ideal.rsqrt (variance (dense (fun e => x0 (ix3 b s e)) (fun e => x3 (ix1 e)) (fun q e => x1 (ix2 q e)) (fun q => x2 (ix1 q))) + Ideal.ofBits .f32 0x2B8CBCCC#32) := by
  rw [val_main_v28_apply, v23_at, val_main_v27_apply, val_main_v26_apply, val_main_v25_apply, val_main_v24_apply, val_main_cst_5_apply]
  have hk : idx_main_v27 (ix3 b s q) = ix3 b s (0 : Fin 1) := funext fun a => Fin.ext (by match a with | ⟨0, _⟩ => rfl | ⟨1, _⟩ => rfl | ⟨2, _⟩ => rfl)
  rw [hk, v21_at]; rfl

/-! ## The pooled activations -/

theorem v10_at (x0 : (⟨S64x577x3072, .f32⟩ : BufTy).Contents (Elt Ideal)) (b : Fin 64) (s : Fin 577) (q : Fin 768) :
    val_main_v10 (F := Ideal) x0 (ix3 b s q) = pooled (fun e => x0 (ix3 b s e)) q := by
  rw [val_main_v10_apply, val_main_v9_apply, val_main_cst_0_apply, val_main_v8_apply, val_main_cst_apply]
  unfold pooled
  refine congrArg (fun y => Ideal.div y (Ideal.ofBits .f32 0x40800000#32)) ?_
  refine (congrArg (· + _) Ideal.ofBits_zero_f32).trans ((zero_add _).trans (Finset.sum_congr rfl fun k _ => ?_))
  rw [val_main_v7_apply]
  refine congrArg x0 (funext fun a => Fin.ext ?_)
  have hb := b.isLt; have hs := s.isLt; have hq := q.isLt; have hk := k.isLt
  match a with
  | ⟨0, _⟩ => show (((b.val * 577 + s.val) * 768 + q.val) * 4 + k.val) / 1772544 = b.val; omega
  | ⟨1, _⟩ => show (((b.val * 577 + s.val) * 768 + q.val) * 4 + k.val) / 3072 % 577 = s.val; omega
  | ⟨2, _⟩ => show (((b.val * 577 + s.val) * 768 + q.val) * 4 + k.val) % 3072 = q.val * 4 + k.val; omega

/-! ## The result -/

theorem v38_at (x0 : (⟨S64x577x3072, .f32⟩ : BufTy).Contents (Elt Ideal)) (x1 : (⟨S768x3072, .f32⟩ : BufTy).Contents (Elt Ideal)) (x2 : (⟨S768, .f32⟩ : BufTy).Contents (Elt Ideal)) (x3 : (⟨S3072, .f32⟩ : BufTy).Contents (Elt Ideal)) (x4 : (⟨S768, .f32⟩ : BufTy).Contents (Elt Ideal)) (x5 : (⟨S768, .f32⟩ : BufTy).Contents (Elt Ideal)) (x6 : (⟨S768, .f32⟩ : BufTy).Contents (Elt Ideal)) (b : Fin 64) (s : Fin 577) (q : Fin 768) :
    val_main_v38 (F := Ideal) x0 x1 x2 x3 x4 x5 x6 (ix3 b s q)
      = pre (fun e => x0 (ix3 b s e)) (fun e => x3 (ix1 e)) (fun q e => x1 (ix2 q e)) (fun q => x2 (ix1 q))
          (fun q => x4 (ix1 q)) (fun q => x5 (ix1 q)) (fun q => x6 (ix1 q)) q := by
  rw [val_main_v38_apply, val_main_v35_apply, val_main_v34_apply, val_main_v31_apply, v28_at, v30_at, v33_at, v10_at, v37_at]
  rfl

theorem ref_eq (x0 : (⟨S64x577x3072, .f32⟩ : BufTy).Contents (Elt Ideal)) (x1 : (⟨S768x3072, .f32⟩ : BufTy).Contents (Elt Ideal)) (x2 : (⟨S768, .f32⟩ : BufTy).Contents (Elt Ideal)) (x3 : (⟨S3072, .f32⟩ : BufTy).Contents (Elt Ideal)) (x4 : (⟨S768, .f32⟩ : BufTy).Contents (Elt Ideal)) (x5 : (⟨S768, .f32⟩ : BufTy).Contents (Elt Ideal)) (x6 : (⟨S768, .f32⟩ : BufTy).Contents (Elt Ideal)) (x7 : (⟨S768, .f32⟩ : BufTy).Contents (Elt Ideal)) (x8 : (⟨S768, .f32⟩ : BufTy).Contents (Elt Ideal)) (x9 : (⟨S768, .f32⟩ : BufTy).Contents (Elt Ideal)) (x10 : (⟨S768, .f32⟩ : BufTy).Contents (Elt Ideal)) :
    val_main_v53 (F := Ideal) x0 x1 x2 x3 x4 x5 x6 x7 x8 x9 x10 = result x0 x1 x2 x3 x4 x5 x6 x7 x8 x9 x10 := by
  funext i
  obtain ⟨b, s, q, rfl⟩ : ∃ (b : Fin 64) (s : Fin 577) (q : Fin 768), i = ix3 b s q := ⟨i 0, i 1, i 2, eq_ix3 i⟩
  rw [result_apply, val_main_v53_apply, val_main_v50_apply, val_main_v47_apply, val_main_v44_apply, val_main_v40_apply,
    val_main_v43_apply, v38_at, v42_at, v46_at, v49_at, v52_at, val_main_v39_apply, val_main_cst_6_apply]
  rfl

end Cert.ReferenceIdeal.RefValue

end
-- ==== Proof.lean ====
/-
  The kernel computes, for every activation row (b, s) of a 64 x 577 x 3072 array, a row of 768 numbers: the dense
  product of the shifted row against the transposed weights plus a bias, normalised along the row, scaled and
  shifted, added to the mean of each four neighbouring activations, passed through a leaky threshold, scaled and
  shifted again.  It does so over the array flattened to 36928 rows, 256 rows per grid point (145 points, the last
  block 64 rows inside the array), each output row depending on its own activation row only; the reference does the
  same arithmetic, in the same order, on the unflattened arrays.  Over the extended reals a change of float format is
  the identity and every sum is the exact sum, so both end at the one array `RowSpec.result` of the arguments.

  The frames: the word-level program's by forgetting what the body leaves in the output buffer (the rows past the
  array's end hold unnamed words); the idealized kernel's from its run with every block named; the reference's from
  its generated run.  The idealization rewrote no operation, so there is nothing to preserve.
-/
import proofs.«115047_j8117488190193_1_alg».proof.Defs
import proofs.«115047_j8117488190193_1_alg».proof.Proof.Gen.Kernel
import proofs.«115047_j8117488190193_1_alg».proof.Proof.Gen.Kernel.Skeleton
import proofs.«115047_j8117488190193_1_alg».proof.Proof.Gen.Kernel.Launch
import proofs.«115047_j8117488190193_1_alg».proof.Proof.Gen.Kernel.Points
import proofs.«115047_j8117488190193_1_alg».proof.Proof.Gen.Kernel.Frame
import proofs.«115047_j8117488190193_1_alg».proof.Proof.Gen.KernelIdeal
import proofs.«115047_j8117488190193_1_alg».proof.Proof.Gen.KernelIdeal.Skeleton
import proofs.«115047_j8117488190193_1_alg».proof.Proof.Gen.KernelIdeal.Launch
import proofs.«115047_j8117488190193_1_alg».proof.Proof.Gen.KernelIdeal.Points
import proofs.«115047_j8117488190193_1_alg».proof.Proof.Gen.KernelIdeal.Frame
import proofs.«115047_j8117488190193_1_alg».proof.Proof.Gen.ReferenceIdeal
import proofs.«115047_j8117488190193_1_alg».proof.Proof.Gen.Pre_finite_inputs
import proofs.«115047_j8117488190193_1_alg».proof.Proof.Gen.ReferenceIdeal.Run
import proofs.«115047_j8117488190193_1_alg».proof.Proof.Gen.ReferenceIdeal.Read
import proofs.«115047_j8117488190193_1_alg».proof.Proof.FrameBits
import proofs.«115047_j8117488190193_1_alg».proof.Proof.ValueIdeal
import proofs.«115047_j8117488190193_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.FrameProof.frame (F := Bits) m ρ

theorem frame_kernelIdeal : Cert.frame_KernelIdeal := fun m ρ _ => Cert.KernelIdeal.RunProof.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs, from memories agreeing on the arguments, end with the result at `RowSpec.result` of the
    arguments. -/
theorem algebraic : Cert.algebraic_KernelIdeal_ReferenceIdeal := by
  intro m ρ m' ρ' _ hagree
  refine ⟨_, Cert.KernelIdeal.ValueProof.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RefValue.ref_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
